-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x255x255x255 : Shape := ⟨5, ![1, 1, 255, 255, 255]⟩
abbrev S4913x64 : Shape := ⟨2, ![4913, 64]⟩
abbrev S_ : Shape := ⟨0, ![]⟩

class Facts : Prop where
  bcast_S_S1x1x255x255x255 : S_.BroadcastsInDim S1x1x255x255x255 (![] : Fin 0 → Fin S1x1x255x255x255.rank)
  reducesTo_S1x1x255x255x255_S_d0_1_2_3_4 : S1x1x255x255x255.ReducesTo [0, 1, 2, 3, 4] S_
  h_S_ : 0 < S_.numel
  bcast_S_S4913x64 : S_.BroadcastsInDim S4913x64 (![] : Fin 0 → Fin S4913x64.rank)
  reducesTo_S4913x64_S_d0_1 : S4913x64.ReducesTo [0, 1] S_

variable [Facts]

def fn_part1 {F : FTy → Type} [FloatOps F] (main_v13 : IVec S_ 1) (main_v16 : IVec S4913x64 1) : IVec S_ 1 :=
  let main_c_5 : IVec S_ 1 := constantI S_ 1 1#1
  let main_v17 : IVec S_ 1 := (fun x v => Host.reduce IntOp.andi x v reducesTo_S4913x64_S_d0_1 h_S_) main_v16 main_c_5
  let main_v18 : IVec S_ 1 := andi main_v13 main_v17
  main_v18

def fn {F : FTy → Type} [FloatOps F] (main_arg0 : FVec F S1x1x255x255x255 .f32) (main_arg1 : FVec F S1x1x255x255x255 .f32) (main_arg2 : FVec F S4913x64 .f32) (main_arg3 : FVec F S4913x64 .f32) : IVec S_ 1 :=
  let main_v0 : FVec F S1x1x255x255x255 .f32 := Host.absf main_arg0
  let main_cst : FVec F S_ .f32 := constant S_ .f32 0x7F800000#32
  let main_v1 : FVec F S1x1x255x255x255 .f32 := broadcastInDim S1x1x255x255x255 ![] bcast_S_S1x1x255x255x255 main_cst
  let main_v2 : IVec S1x1x255x255x255 1 := cmpf .olt main_v0 main_v1
  let main_c : IVec S_ 1 := constantI S_ 1 1#1
  let main_v3 : IVec S_ 1 := (fun x v => Host.reduce IntOp.andi x v reducesTo_S1x1x255x255x255_S_d0_1_2_3_4 h_S_) main_v2 main_c
  let main_v4 : FVec F S1x1x255x255x255 .f32 := Host.absf main_arg1
  let main_cst_0 : FVec F S_ .f32 := constant S_ .f32 0x7F800000#32
  let main_v5 : FVec F S1x1x255x255x255 .f32 := broadcastInDim S1x1x255x255x255 ![] bcast_S_S1x1x255x255x255 main_cst_0
  let main_v6 : IVec S1x1x255x255x255 1 := cmpf .olt main_v4 main_v5
  let main_c_1 : IVec S_ 1 := constantI S_ 1 1#1
  let main_v7 : IVec S_ 1 := (fun x v => Host.reduce IntOp.andi x v reducesTo_S1x1x255x255x255_S_d0_1_2_3_4 h_S_) main_v6 main_c_1
  let main_v8 : IVec S_ 1 := andi main_v3 main_v7
  let main_v9 : FVec F S4913x64 .f32 := Host.absf main_arg2
  let main_cst_2 : FVec F S_ .f32 := constant S_ .f32 0x7F800000#32
  let main_v10 : FVec F S4913x64 .f32 := broadcastInDim S4913x64 ![] bcast_S_S4913x64 main_cst_2
  let main_v11 : IVec S4913x64 1 := cmpf .olt main_v9 main_v10
  let main_c_3 : IVec S_ 1 := constantI S_ 1 1#1
  let main_v12 : IVec S_ 1 := (fun x v => Host.reduce IntOp.andi x v reducesTo_S4913x64_S_d0_1 h_S_) main_v11 main_c_3
  let main_v13 : IVec S_ 1 := andi main_v8 main_v12
  let main_v14 : FVec F S4913x64 .f32 := Host.absf main_arg3
  let main_cst_4 : FVec F S_ .f32 := constant S_ .f32 0x7F800000#32
  let main_v15 : FVec F S4913x64 .f32 := broadcastInDim S4913x64 ![] bcast_S_S4913x64 main_cst_4
  let main_v16 : IVec S4913x64 1 := cmpf .olt main_v14 main_v15
  fn_part1 (F := F) main_v13 main_v16
-- ==== Kernel.lean ====
abbrev S1x1x255x255x255 : Shape := ⟨5, ![1, 1, 255, 255, 255]⟩
abbrev S4913x64 : Shape := ⟨2, ![4913, 64]⟩
abbrev S255x255x255 : Shape := ⟨3, ![255, 255, 255]⟩
abbrev S15x17x15x17x15x17 : Shape := ⟨6, ![15, 17, 15, 17, 15, 17]⟩
abbrev S15x15x15x17x17x17 : Shape := ⟨6, ![15, 15, 15, 17, 17, 17]⟩
abbrev S3375x4913 : Shape := ⟨2, ![3375, 4913]⟩
abbrev S_ : Shape := ⟨0, ![]⟩
abbrev S3584x4913 : Shape := ⟨2, ![3584, 4913]⟩
abbrev S16x128 : Shape := ⟨2, ![16, 128]⟩
abbrev S256x4913 : Shape := ⟨2, ![256, 4913]⟩
abbrev S8x128 : Shape := ⟨2, ![8, 128]⟩
abbrev S1x1 : Shape := ⟨2, ![1, 1]⟩
abbrev S256 : Shape := ⟨1, ![256]⟩
abbrev S256x1 : Shape := ⟨2, ![256, 1]⟩
abbrev S256x64 : Shape := ⟨2, ![256, 64]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 34
  | .vmem => 10
  | .smem => 0
  | _ => 0

abbrev bufTy : (tb : Table) → Fin (tcTables nBuf tb) → BufTy
  | .hbm, ⟨0, _⟩ => ⟨S1x1x255x255x255, .f32⟩
  | .hbm, ⟨1, _⟩ => ⟨S1x1x255x255x255, .f32⟩
  | .hbm, ⟨2, _⟩ => ⟨S4913x64, .f32⟩
  | .hbm, ⟨3, _⟩ => ⟨S4913x64, .f32⟩
  | .hbm, ⟨4, _⟩ => ⟨S255x255x255, .f32⟩
  | .hbm, ⟨5, _⟩ => ⟨S15x17x15x17x15x17, .f32⟩
  | .hbm, ⟨6, _⟩ => ⟨S15x15x15x17x17x17, .f32⟩
  | .hbm, ⟨7, _⟩ => ⟨S3375x4913, .f32⟩
  | .hbm, ⟨8, _⟩ => ⟨S255x255x255, .f32⟩
  | .hbm, ⟨9, _⟩ => ⟨S15x17x15x17x15x17, .f32⟩
  | .hbm, ⟨10, _⟩ => ⟨S15x15x15x17x17x17, .f32⟩
  | .hbm, ⟨11, _⟩ => ⟨S3375x4913, .f32⟩
  | .hbm, ⟨12, _⟩ => ⟨S_, .i32⟩
  | .hbm, ⟨13, _⟩ => ⟨S_, .f32⟩
  | .hbm, ⟨14, _⟩ => ⟨S3584x4913, .f32⟩
  | .hbm, ⟨15, _⟩ => ⟨S_, .i32⟩
  | .hbm, ⟨16, _⟩ => ⟨S_, .f32⟩
  | .hbm, ⟨17, _⟩ => ⟨S3584x4913, .f32⟩
  | .hbm, ⟨18, _⟩ => ⟨S4913x64, .bf16⟩
  | .hbm, ⟨19, _⟩ => ⟨S4913x64, .bf16⟩
  | .hbm, ⟨20, _⟩ => ⟨S16x128, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256x4913, .f32⟩
  | .local _ .vmem, ⟨1, _⟩ => ⟨S256x4913, .f32⟩
  | .local _ .vmem, ⟨2, _⟩ => ⟨S256x4913, .f32⟩
  | .local _ .vmem, ⟨3, _⟩ => ⟨S256x4913, .f32⟩
  | .local _ .vmem, ⟨4, _⟩ => ⟨S4913x64, .bf16⟩
  | .local _ .vmem, ⟨5, _⟩ => ⟨S4913x64, .bf16⟩
  | .local _ .vmem, ⟨6, _⟩ => ⟨S8x128, .f32⟩
  | .local _ .vmem, ⟨7, _⟩ => ⟨S8x128, .f32⟩
  | .local _ .vmem, ⟨8, _⟩ => ⟨S1x1, .f32⟩
  | .local _ .vmem, ⟨9, _⟩ => ⟨S1x1, .f32⟩
  | _, _ => ⟨S1x1x255x255x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 7], ![false, false]⟩

def k0_cond2 (i : grid0.Coords) : BitVec 1 :=
  let arg1 : BitVec 32 := BitVec.ofNat 32 (i 1).val
  let c6_i32 : BitVec 32 := 6#32
  let v52 : BitVec 1 := Scalar.cmpi .eq arg1 c6_i32
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4913 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4913 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4913x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4913x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x1x255x255x255_S255x255x255 : S1x1x255x255x255.ShapeCasts S255x255x255
  shapeCasts_S255x255x255_S15x17x15x17x15x17 : S255x255x255.ShapeCasts S15x17x15x17x15x17
  transposes_S15x17x15x17x15x17_S15x15x15x17x17x17_0_2_4_1_3_5 : S15x17x15x17x15x17.Transposes [0, 2, 4, 1, 3, 5] S15x15x15x17x17x17
  shapeCasts_S15x15x15x17x17x17_S3375x4913 : S15x15x15x17x17x17.ShapeCasts S3375x4913
  pads_S3375x4913_S3584x4913_02090_000 : S3375x4913.Pads (![0, 0] : Fin 2 → Nat) ![209, 0] ![0, 0] S3584x4913
  h_S_ : 0 < S_.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4913_S256x4913_0_0 : ∀ a, (![0, 0] : Fin 2 → Nat) a + S256x4913.size a ≤ S256x4913.size a
  h_S256x4913 : 0 < S256x4913.numel
  shapeCasts_S256x4913_S256x4913 : S256x4913.ShapeCasts S256x4913
  natLt_1_32 : 1 < 32
  reduces_S256x4913_S256 : S256x4913.Reduces [1] S256
  shapeCasts_S256_S256x1 : S256.ShapeCasts S256x1
  inb_S4913x64_S4913x64_0_0 : ∀ a, (![0, 0] : Fin 2 → Nat) a + S4913x64.size a ≤ S4913x64.size a
  h_S4913x64 : 0 < S4913x64.numel
  shapeCasts_S4913x64_S4913x64 : S4913x64.ShapeCasts S4913x64
  reduces_S256x64_S256 : S256x64.Reduces [1] S256
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  dot_S256x4913_S4913x64_S256x64_1_0_0_1_n_n_wf : DotDims.WF S256x4913 S4913x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4913.size a ≤ S3584x4913.size a
  hwx0_0 : ∀ i : grid0.Coords, EltTy.bits .f32 = 32 ∨ (Rect.block (s := S3584x4913) S256x4913.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4913.size a ≤ S3584x4913.size a
  hwx0_1 : ∀ i : grid0.Coords, EltTy.bits .f32 = 32 ∨ (Rect.block (s := S3584x4913) S256x4913.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4913x64.size a ≤ S4913x64.size a
  hwx0_2 : ∀ i : grid0.Coords, EltTy.bits .bf16 = 32 ∨ (Rect.block (s := S4913x64) S4913x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4913x64.size a ≤ S4913x64.size a
  hwx0_3 : ∀ i : grid0.Coords, EltTy.bits .bf16 = 32 ∨ (Rect.block (s := S4913x64) S4913x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S256x4913_S4913x64_S256x64_1_0_0_1_n_n : DotDims S256x4913 S4913x64 S256x64 where
  lhsContracting := [1]
  rhsContracting := [0]
  lhsNonContracting := [0]
  rhsNonContracting := [1]
  lhsBatch := []
  rhsBatch := []
  wf := dot_S256x4913_S4913x64_S256x64_1_0_0_1_n_n_wf

abbrev win0_0 : Pipeline.Window sig grid0 :=
  Pipeline.Window.ofSpec (Memref.whole main_v8) S256x4913.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x4913.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4913x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4913x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x1x255x255x255 : Shape := ⟨5, ![1, 1, 255, 255, 255]⟩
abbrev S4913x64 : Shape := ⟨2, ![4913, 64]⟩
abbrev S255x255x255 : Shape := ⟨3, ![255, 255, 255]⟩
abbrev S15x17x15x17x15x17 : Shape := ⟨6, ![15, 17, 15, 17, 15, 17]⟩
abbrev S15x15x15x17x17x17 : Shape := ⟨6, ![15, 15, 15, 17, 17, 17]⟩
abbrev S3375x4913 : Shape := ⟨2, ![3375, 4913]⟩
abbrev S_ : Shape := ⟨0, ![]⟩
abbrev S3375 : Shape := ⟨1, ![3375]⟩
abbrev S3375x64 : Shape := ⟨2, ![3375, 64]⟩

abbrev nBuf : Space → Nat
  | .hbm => 39
  | .vmem => 0
  | .smem => 0
  | _ => 0

abbrev bufTy : (tb : Table) → Fin (tcTables nBuf tb) → BufTy
  | .hbm, ⟨0, _⟩ => ⟨S1x1x255x255x255, .f32⟩
  | .hbm, ⟨1, _⟩ => ⟨S1x1x255x255x255, .f32⟩
  | .hbm, ⟨2, _⟩ => ⟨S4913x64, .f32⟩
  | .hbm, ⟨3, _⟩ => ⟨S4913x64, .f32⟩
  | .hbm, ⟨4, _⟩ => ⟨S255x255x255, .f32⟩
  | .hbm, ⟨5, _⟩ => ⟨S15x17x15x17x15x17, .f32⟩
  | .hbm, ⟨6, _⟩ => ⟨S15x15x15x17x17x17, .f32⟩
  | .hbm, ⟨7, _⟩ => ⟨S3375x4913, .f32⟩
  | .hbm, ⟨8, _⟩ => ⟨S255x255x255, .f32⟩
  | .hbm, ⟨9, _⟩ => ⟨S15x17x15x17x15x17, .f32⟩
  | .hbm, ⟨10, _⟩ => ⟨S15x15x15x17x17x17, .f32⟩
  | .hbm, ⟨11, _⟩ => ⟨S3375x4913, .f32⟩
  | .hbm, ⟨12, _⟩ => ⟨S_, .f32⟩
  | .hbm, ⟨13, _⟩ => ⟨S3375x4913, .f32⟩
  | .hbm, ⟨14, _⟩ => ⟨S3375x4913, .i1⟩
  | .hbm, ⟨15, _⟩ => ⟨S3375x4913, .f32⟩
  | .hbm, ⟨16, _⟩ => ⟨S_, .f32⟩
  | .hbm, ⟨17, _⟩ => ⟨S3375, .f32⟩
  | .hbm, ⟨18, _⟩ => ⟨S_, .f32⟩
  | .hbm, ⟨19, _⟩ => ⟨S3375, .f32⟩
  | .hbm, ⟨20, _⟩ => ⟨S3375, .f32⟩
  | .hbm, ⟨21, _⟩ => ⟨S_, .f32⟩
  | .hbm, ⟨22, _⟩ => ⟨S3375, .f32⟩
  | .hbm, ⟨23, _⟩ => ⟨S3375, .i1⟩
  | .hbm, ⟨24, _⟩ => ⟨S3375, .f32⟩
  | .hbm, ⟨25, _⟩ => ⟨S3375x64, .f32⟩
  | .hbm, ⟨26, _⟩ => ⟨S3375x64, .f32⟩
  | .hbm, ⟨27, _⟩ => ⟨S3375x64, .f32⟩
  | .hbm, ⟨28, _⟩ => ⟨S_, .f32⟩
  | .hbm, ⟨29, _⟩ => ⟨S3375, .f32⟩
  | .hbm, ⟨30, _⟩ => ⟨S3375, .f32⟩
  | .hbm, ⟨31, _⟩ => ⟨S3375, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S1x1x255x255x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  shapeCasts_S1x1x255x255x255_S255x255x255 : S1x1x255x255x255.ShapeCasts S255x255x255
  shapeCasts_S255x255x255_S15x17x15x17x15x17 : S255x255x255.ShapeCasts S15x17x15x17x15x17
  transposes_S15x17x15x17x15x17_S15x15x15x17x17x17_0_2_4_1_3_5 : S15x17x15x17x15x17.Transposes [0, 2, 4, 1, 3, 5] S15x15x15x17x17x17
  shapeCasts_S15x15x15x17x17x17_S3375x4913 : S15x15x15x17x17x17.ShapeCasts S3375x4913
  bcast_S_S3375x4913 : S_.BroadcastsInDim S3375x4913 (![] : Fin 0 → Fin S3375x4913.rank)
  reducesTo_S3375x4913_S3375_d1 : S3375x4913.ReducesTo [1] S3375
  h_S_ : 0 < S_.numel
  bcast_S_S3375 : S_.BroadcastsInDim S3375 (![] : Fin 0 → Fin S3375.rank)
  reducesTo_S3375x64_S3375_d1 : S3375x64.ReducesTo [1] S3375
  reducesTo_S3375_S_d0 : S3375.ReducesTo [0] S_
  dot_S3375x4913_S4913x64_S3375x64_1_0_0_1_n_n_wf : DotDims.WF S3375x4913 S4913x64 S3375x64 [1] [0] [0] [1] [] []

variable [Facts₀]

def dot_S3375x4913_S4913x64_S3375x64_1_0_0_1_n_n : DotDims S3375x4913 S4913x64 S3375x64 where
  lhsContracting := [1]
  rhsContracting := [0]
  lhsNonContracting := [0]
  rhsNonContracting := [1]
  lhsBatch := []
  rhsBatch := []
  wf := dot_S3375x4913_S4913x64_S3375x64_1_0_0_1_n_n_wf

class Facts : Prop extends Facts₀ where

variable [Facts]
-- ==== Proof.Pieces.lean ====
/-
  What one grid point leaves in the two one-entry accumulators and, at the last point of a core's run, in the output tile,
  written over the body's pure payloads.

  The body adds the block's partial sum to the first accumulator and the block's count of kept rows to the second. At the
  first point of a run both accumulators are first set to zero; at the last point the output tile is built from the two
  accumulators as just updated. Each of these is one whole-buffer store (after at most one earlier whole-buffer store), so
  what the buffer holds afterwards is the last store's payload, and a load of a buffer stored whole reads that store's payload.
-/
import proofs.«146623_j71562745086384_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PatchValue

open Cert.KernelIdeal Cert.KernelIdeal.Gen

variable {F : FTy → Type} [FloatOps F]

/-- Offsets zero on both axes. -/
theorem hz2 : (![0, 0] : Fin 2 → Nat) = fun _ => 0 := funext fun a => by fin_cases a <;> rfl

/-- First point of a run: the sum accumulator ends at the zero it was just set to plus the block's partial sum. -/
theorem sout0_A_0_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 : Vec F S256x4913 .f32) (x1 : Vec F S256x4913 .f32) (x2 : Vec F S4913x64 .bf16) (x3 : Vec F S4913x64 .bf16) :
    sout0_A_0 c i a2 h2 a3 h3 a4 h4 a5 h5 a6 h6 a7 h7 a8 h8 hc0 hc1 x0 x1 x2 x3 = k0_pay1 (k0_pay8 x0 x1 x2 x3) k0_pay4 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

/-- First point of a run: the count accumulator ends at the zero it was just set to plus the block's count. -/
theorem sout0_A_1_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 : Vec F S256x4913 .f32) (x1 : Vec F S256x4913 .f32) (x2 : Vec F S4913x64 .bf16) (x3 : Vec F S4913x64 .bf16) :
    sout0_A_1 c i a2 h2 a3 h3 a4 h4 a5 h5 a6 h6 a7 h7 a8 h8 hc0 hc1 x0 x1 x2 x3 = k0_pay2 (k0_pay9 x0) k0_pay5 := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

/-- A middle point: the sum accumulator ends at what it held plus the block's partial sum. -/
theorem sout0_B_0_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 : Vec F S256x4913 .f32) (x1 : Vec F S256x4913 .f32) (x2 : Vec F S4913x64 .bf16) (x3 : Vec F S4913x64 .bf16) (xs0 xs1 : Vec F S1x1 .f32) :
    sout0_B_0 c i a2 h2 a3 h3 a4 h4 a5 h5 a6 h6 a7 h7 a8 h8 hc0 hc1 x0 x1 x2 x3 xs0 xs1 = k0_pay1 (k0_pay8 x0 x1 x2 x3) xs0 := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

/-- A middle point: the count accumulator ends at what it held plus the block's count. -/
theorem sout0_B_1_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 : Vec F S256x4913 .f32) (x1 : Vec F S256x4913 .f32) (x2 : Vec F S4913x64 .bf16) (x3 : Vec F S4913x64 .bf16) (xs0 xs1 : Vec F S1x1 .f32) :
    sout0_B_1 c i a2 h2 a3 h3 a4 h4 a5 h5 a6 h6 a7 h7 a8 h8 hc0 hc1 x0 x1 x2 x3 xs0 xs1 = k0_pay2 (k0_pay9 x0) xs1 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

/-- Last point of a run: the sum accumulator as at a middle point. -/
theorem sout0_C_0_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S256x4913 .f32) (x1 : Vec F S256x4913 .f32) (x2 : Vec F S4913x64 .bf16) (x3 : Vec F S4913x64 .bf16) (xs0 xs1 : Vec F S1x1 .f32) :
    sout0_C_0 c i a2 h2 a3 h3 a4 h4 a5 h5 a6 h6 a7 h7 a8 h8 hc0 hc1 x0 x1 x2 x3 xs0 xs1 = k0_pay1 (k0_pay8 x0 x1 x2 x3) xs0 := by
  unfold sout0_C_0
  rw [View.read_writes_eq_canon _ _ _ (scover0_C_0 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

/-- Last point of a run: the count accumulator as at a middle point. -/
theorem sout0_C_1_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S256x4913 .f32) (x1 : Vec F S256x4913 .f32) (x2 : Vec F S4913x64 .bf16) (x3 : Vec F S4913x64 .bf16) (xs0 xs1 : Vec F S1x1 .f32) :
    sout0_C_1 c i a2 h2 a3 h3 a4 h4 a5 h5 a6 h6 a7 h7 a8 h8 hc0 hc1 x0 x1 x2 x3 xs0 xs1 = k0_pay2 (k0_pay9 x0) xs1 := by
  unfold sout0_C_1
  rw [View.read_writes_eq_canon _ _ _ (scover0_C_1 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

/-- Last point of a run: the output tile is built from the two accumulators as just updated. -/
theorem out0_C_4_eq (c : Dev nD) (i : grid0.Coords) (a2 : Memref sig .tc .vmem S256x4913 .f32) (h2 : a2.IsWhole) (a3 : Memref sig .tc .vmem S256x4913 .f32) (h3 : a3.IsWhole) (a4 : Memref sig .tc .vmem S4913x64 .bf16) (h4 : a4.IsWhole) (a5 : Memref sig .tc .vmem S4913x64 .bf16) (h5 : a5.IsWhole) (a6 : Memref sig .tc .vmem S8x128 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S256x4913 .f32) (x1 : Vec F S256x4913 .f32) (x2 : Vec F S4913x64 .bf16) (x3 : Vec F S4913x64 .bf16) (xs0 xs1 : Vec F S1x1 .f32) :
    out0_C_4 c i a2 h2 a3 h3 a4 h4 a5 h5 a6 h6 a7 h7 a8 h8 hc0 hc1 x0 x1 x2 x3 xs0 xs1 = k0_pay3 (k0_pay1 (k0_pay8 x0 x1 x2 x3) xs0) (k0_pay2 (k0_pay9 x0) xs1) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero hz2, View.readCov_unit_zero (S := S1x1) _ hz2, View.readCov_unit_zero (S := S1x1) _ hz2]
  simp only [View.readAt_eq_ld, h2.read_unread, h3.read_unread, h4.read_unread, h5.read_unread, h7.read_unread, h8.read_unread, View.ld_unit_zero (S := S256x4913) hz2, View.ld_unit_zero (S := S4913x64) hz2, View.ld_unit_zero (S := S1x1) hz2]

end Cert.KernelIdeal.PatchValue

end
-- ==== Proof.KeepRule.lean ====
/-
  The rule that keeps a patch, as arithmetic on the extended reals, and sums taken block by block.

  A patch is a row of 4913 numbers. Its zero count `z` is the number of entries equal to zero. One program keeps
  the patch when `z · c ≤ t`, with `c` the single-precision number nearest 1/4913 and `t` the one nearest 0.15; the
  other keeps it when `z / 4913 ≤ t`. The two numbers `c` and 1/4913 differ, but `z` is a natural number, and both
  conditions say `z ≤ 736`: the products `736 · c` and `737 · c` lie on the two sides of `t`, and so do
  `736 / 4913` and `737 / 4913`. So the two rules keep the same patches.
-/
import Idealize.ShloMosaic.PureOps.Ideal.Laws

noncomputable section

open scoped BigOperators

namespace Cert.PatchSim

open Idealize.ShloMosaic

/-! ## The four numbers the programs spell -/

/-- The word `0x3F800000` is the number one. -/
theorem word_one : Ideal.ofBits .f32 0x3F800000#32 = 1 := by
  simp [Ideal.ofBits, Ideal.ieee, -EReal.coe_mul]; norm_num

/-- The word `0x45998800` is the patch length 4913. -/
theorem word_len : Ideal.ofBits .f32 0x45998800#32 = ((4913 : ℝ) : EReal) := by
  simp [Ideal.ofBits, Ideal.ieee, -EReal.coe_mul]; norm_num

/-- The word `0x39556DCA`, the single-precision number nearest 1/4913, is 13987274 / 2^36. -/
theorem word_recip : Ideal.ofBits .f32 0x39556DCA#32 = ((13987274 / 2 ^ 36 : ℝ) : EReal) := by
  simp [Ideal.ofBits, Ideal.ieee, -EReal.coe_mul]; norm_num

/-- The word `0x3E19999A`, the single-precision number nearest 0.15, is 10066330 / 2^26. -/
theorem word_thresh : Ideal.ofBits .f32 0x3E19999A#32 = ((10066330 / 2 ^ 26 : ℝ) : EReal) := by
  simp [Ideal.ofBits, Ideal.ieee, -EReal.coe_mul]; norm_num

/-! ## Both rules say "at most 736 zeros" -/

theorem mul_recip_le_iff (n : ℕ) : (n : ℝ) * (13987274 / 2 ^ 36) ≤ 10066330 / 2 ^ 26 ↔ n ≤ 736 := by
  constructor
  · intro h
    by_contra hc
    have h737 : (737 : ℝ) ≤ n := by exact_mod_cast Nat.lt_of_not_le hc
    have : (737 : ℝ) * (13987274 / 2 ^ 36) ≤ 10066330 / 2 ^ 26 :=
      le_trans (mul_le_mul_of_nonneg_right h737 (by norm_num)) h
    norm_num at this
  · intro h
    have h736 : (n : ℝ) ≤ 736 := by exact_mod_cast h
    calc (n : ℝ) * (13987274 / 2 ^ 36) ≤ 736 * (13987274 / 2 ^ 36) := mul_le_mul_of_nonneg_right h736 (by norm_num)
      _ ≤ 10066330 / 2 ^ 26 := by norm_num

theorem div_len_le_iff (n : ℕ) : (n : ℝ) * (1 / 4913) ≤ 10066330 / 2 ^ 26 ↔ n ≤ 736 := by
  constructor
  · intro h
    by_contra hc
    have h737 : (737 : ℝ) ≤ n := by exact_mod_cast Nat.lt_of_not_le hc
    have : (737 : ℝ) * (1 / 4913) ≤ 10066330 / 2 ^ 26 :=
      le_trans (mul_le_mul_of_nonneg_right h737 (by norm_num)) h
    norm_num at this
  · intro h
    have h736 : (n : ℝ) ≤ 736 := by exact_mod_cast h
    calc (n : ℝ) * (1 / 4913) ≤ 736 * (1 / 4913) := mul_le_mul_of_nonneg_right h736 (by norm_num)
      _ ≤ 10066330 / 2 ^ 26 := by norm_num

/-- For a natural number of zeros, the product with the rounded reciprocal passes the threshold exactly when the
    quotient by the patch length does. -/
theorem keep_rules_agree (n : ℕ) :
    Ideal.cmp .ole (((n : ℝ) : EReal) * Ideal.ofBits .f32 0x39556DCA#32) (Ideal.ofBits .f32 0x3E19999A#32)
      = Ideal.cmp .ole (Ideal.div ((n : ℝ) : EReal) (Ideal.ofBits .f32 0x45998800#32)) (Ideal.ofBits .f32 0x3E19999A#32) := by
  rw [word_recip, word_thresh, word_len, Ideal.div_coe (by norm_num : (4913 : ℝ) ≠ 0), ← EReal.coe_mul, ← EReal.coe_mul]
  unfold Ideal.cmp
  simp only [EReal.coe_le_coe_iff]
  rw [decide_eq_decide.mpr ((mul_recip_le_iff n).trans (div_len_le_iff n).symm)]

/-- A patch of 4913 zeros is not kept. -/
theorem keep_full :
    Ideal.cmp .ole ((((4913 : ℕ) : ℝ) : EReal) * Ideal.ofBits .f32 0x39556DCA#32) (Ideal.ofBits .f32 0x3E19999A#32) = 0#1 := by
  rw [word_recip, word_thresh, ← EReal.coe_mul]
  unfold Ideal.cmp
  simp only [EReal.coe_le_coe_iff]
  rw [decide_eq_false (fun h => absurd ((mul_recip_le_iff 4913).mp h) (by decide))]
  rfl

/-! ## Counting zeros -/

/-- A finite sum of real numbers, read in the extended reals, is the sum of the readings. -/
theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The number of entries of a row that equal zero, as the sum of the tests' bits. -/
def zeros {n : ℕ} (p : Fin n → EReal) : EReal := ∑ k : Fin n, (((Ideal.cmp .oeq (p k) 0).toNat : ℝ) : EReal)

/-- It is a natural number. -/
theorem zeros_nat {n : ℕ} (p : Fin n → EReal) : ∃ c : ℕ, zeros p = ((c : ℝ) : EReal) :=
  ⟨∑ k : Fin n, (Ideal.cmp .oeq (p k) 0).toNat, by
    unfold zeros
    rw [← coe_sum, Nat.cast_sum]⟩

/-- A row of zeros has as many zeros as entries. -/
theorem zeros_zero (n : ℕ) : zeros (fun _ : Fin n => (0 : EReal)) = (((n : ℕ) : ℝ) : EReal) := by
  unfold zeros
  have h1 : (Ideal.cmp .oeq (0 : EReal) 0).toNat = 1 := by simp [Ideal.cmp]
  rw [← coe_sum]
  simp [h1]

/-! ## Sums block by block -/

/-- A sum over `n · B` consecutive naturals is the sum over `B` blocks of `n`. -/
theorem sum_blocks {M : Type*} [AddCommMonoid M] (f : ℕ → M) (n : ℕ) :
    ∀ B : ℕ, ∑ b ∈ Finset.range B, ∑ r ∈ Finset.range n, f (n * b + r) = ∑ i ∈ Finset.range (n * B), f i
  | 0 => by simp
  | B + 1 => by
    rw [Finset.sum_range_succ, sum_blocks f n B, Nat.mul_succ, Finset.sum_range_add]

/-- Terms that vanish from `a` on do not count. -/
theorem sum_range_of_tail_zero {M : Type*} [AddCommMonoid M] (f : ℕ → M) (a d : ℕ) (h0 : ∀ i, a ≤ i → f i = 0) :
    ∑ i ∈ Finset.range (a + d), f i = ∑ i ∈ Finset.range a, f i := by
  rw [Finset.sum_range_add, Finset.sum_eq_zero (fun i _ => h0 (a + i) (Nat.le_add_right a i)), add_zero]

end Cert.PatchSim

end
-- ==== Proof.PatchSpec.lean ====
/-
  What the two programs compute, row by row.

  Each of the 3375 patches is a row `p` of the fixed volume's patch matrix and a row `q` of the moving volume's. Its
  similarity is `tanh (Σ_j (Σ_k p k · Wf k j) · (Σ_k q k · Wm k j))`, and it is kept when few enough of `p`'s entries
  are zero. The answer is the sum of the kept similarities over the number of kept patches (at least one).

  One program walks the patches in 14 blocks of 256 rows, the rows past the 3375th being rows of zeros: such a row has
  4913 zeros and is not kept, so it adds nothing to either sum. The other program sums the 3375 rows at once. Sums of
  extended reals may be regrouped freely (addition is commutative and associative there), so the totals agree.
-/
import proofs.«146623_j71562745086384_2_alg».proof.Proof.KeepRule
import Idealize.ShloMosaic.Lib.ValueIdx

noncomputable section

open scoped BigOperators

namespace Cert.PatchSim

open Idealize.ShloMosaic

/-- A one-bit word read as a number: 0 or 1. -/
abbrev bitVal (b : BitVec 1) : EReal := ((b.toNat : ℝ) : EReal)

/-- Kept, by the product with the rounded reciprocal of the patch length. -/
def keepFolded (p : Fin 4913 → EReal) : EReal :=
  bitVal (Ideal.cmp .ole (zeros p * Ideal.ofBits .f32 0x39556DCA#32) (Ideal.ofBits .f32 0x3E19999A#32))

/-- Kept, by the quotient by the patch length. -/
def keepQuot (p : Fin 4913 → EReal) : EReal :=
  bitVal (Ideal.cmp .ole (Ideal.div (zeros p) (Ideal.ofBits .f32 0x45998800#32)) (Ideal.ofBits .f32 0x3E19999A#32))

/-- The two rules keep the same rows. -/
theorem keepFolded_eq_keepQuot (p : Fin 4913 → EReal) : keepFolded p = keepQuot p := by
  obtain ⟨c, hc⟩ := zeros_nat p
  unfold keepFolded keepQuot
  rw [hc, keep_rules_agree c]

/-- A row of zeros is not kept. -/
theorem keepFolded_zero : keepFolded (fun _ => (0 : EReal)) = 0 := by
  unfold keepFolded
  rw [zeros_zero 4913, keep_full]
  simp

/-- A patch's feature `j`: its row against column `j` of the weights. -/
def feature (p : Fin 4913 → EReal) (W : Fin 4913 → Fin 64 → EReal) (j : Fin 64) : EReal := ∑ k : Fin 4913, p k * W k j

/-- The similarity of a fixed patch and a moving patch. -/
def sim (Wf Wm : Fin 4913 → Fin 64 → EReal) (p q : Fin 4913 → EReal) : EReal :=
  Ideal.tanh (∑ j : Fin 64, feature p Wf j * feature q Wm j)

/-- The kept similarities, summed over 14 blocks of 256 rows, are those of the first 3375 rows when the later rows are
    rows of zeros; and the second rule may replace the first. -/
theorem kept_sum_blocks (Wf Wm : Fin 4913 → Fin 64 → EReal) (P Q : ℕ → Fin 4913 → EReal)
    (hP : ∀ R, 3375 ≤ R → P R = fun _ => 0) :
    ∑ b ∈ Finset.range 14, ∑ r ∈ Finset.range 256, sim Wf Wm (P (256 * b + r)) (Q (256 * b + r)) * keepFolded (P (256 * b + r))
      = ∑ R ∈ Finset.range 3375, sim Wf Wm (P R) (Q R) * keepQuot (P R) := by
  rw [sum_blocks (fun R => sim Wf Wm (P R) (Q R) * keepFolded (P R)) 256 14]
  rw [show 256 * 14 = 3375 + 209 from rfl, sum_range_of_tail_zero _ 3375 209 (fun R hR => by
    rw [hP R hR, keepFolded_zero, mul_zero])]
  exact Finset.sum_congr rfl fun R _ => by rw [keepFolded_eq_keepQuot]

/-- The same for the number of kept rows. -/
theorem kept_count_blocks (P : ℕ → Fin 4913 → EReal) (hP : ∀ R, 3375 ≤ R → P R = fun _ => 0) :
    ∑ b ∈ Finset.range 14, ∑ r ∈ Finset.range 256, keepFolded (P (256 * b + r))
      = ∑ R ∈ Finset.range 3375, keepQuot (P R) := by
  rw [sum_blocks (fun R => keepFolded (P R)) 256 14]
  rw [show 256 * 14 = 3375 + 209 from rfl, sum_range_of_tail_zero _ 3375 209 (fun R hR => by
    rw [hP R hR, keepFolded_zero])]
  exact Finset.sum_congr rfl fun R _ => by rw [keepFolded_eq_keepQuot]

/-- Row `R` of a patch matrix of 3375 rows, for every natural `R`: a row of zeros from the 3375th on. -/
def rowsOf (P : (⟨2, ![3375, 4913]⟩ : Shape).Idx → EReal) (R : ℕ) : Fin 4913 → EReal :=
  fun k => if h : R < 3375 then P (ValueIdx.ix2 ⟨R, h⟩ k) else 0

theorem rowsOf_tail (P : (⟨2, ![3375, 4913]⟩ : Shape).Idx → EReal) (R : ℕ) (hR : 3375 ≤ R) : rowsOf P R = fun _ => 0 := by
  funext k
  unfold rowsOf
  rw [dif_neg (by omega)]

theorem rowsOf_lt (P : (⟨2, ![3375, 4913]⟩ : Shape).Idx → EReal) (R : Fin 3375) :
    rowsOf P R.val = fun k => P (ValueIdx.ix2 R k) := by
  funext k
  unfold rowsOf
  rw [dif_pos R.isLt]

/-- Two runs of seven blocks make the fourteen. -/
theorem two_halves {M : Type*} [AddCommMonoid M] (g : ℕ → M) :
    ∑ b ∈ Finset.Ico 0 7, g b + ∑ b ∈ Finset.Ico 7 14, g b = ∑ b ∈ Finset.range 14, g b := by
  rw [Finset.sum_Ico_consecutive g (by norm_num) (by norm_num), Finset.range_eq_Ico]

end Cert.PatchSim

end
-- ==== Proof.LibMatmulAt.lean ====
/-
  General lemmas, on the extended reals and on index arithmetic, with no program in them:
  a plain matrix product into a zero accumulator read at one entry, and two changes of shape that only move a unit axis.
-/
import Idealize.ShloMosaic.Lib.Pipeline.Value
import Idealize.ShloMosaic.Lib.ValueIdx
import Idealize.ShloMosaic.PureOps.Ideal.Laws

noncomputable section

namespace Cert.LibMatmulAt

open Idealize.ShloMosaic Idealize.ShloMosaic.ValueIdx

/-- A product of an [M, K] by a [K, N] matrix into a zero accumulator, read at row `p`, column `j`: the sum over the
    contracted axis of row `p` of the left factor against column `j` of the right one. The four hypotheses say where
    the dimension numbers put the output's coordinates and the contraction's in the operands. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    matmul d prec lhs rhs (constant ⟨2, ![M, N]⟩ .f32 0x00000000#32) (ix2 p j) = ∑ k : Fin K, lhs (ix2 p k) * rhs (ix2 k j) := by
  show FloatOps.matmul d prec lhs rhs (constant ⟨2, ![M, N]⟩ .f32 0x00000000#32) (ix2 p j) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A vector of `a` numbers viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` numbers viewed as one row reads, at `(u, i)`, the column at `(i, v)`. -/
theorem shapeCast_a1_1a_apply {α : Type} {a : ℕ} (x : (⟨2, ![a, 1]⟩ : Shape).Idx → α) (h : (⟨2, ![a, 1]⟩ : Shape).ShapeCasts ⟨2, ![1, a]⟩)
    (u v : Fin 1) (i : Fin a) : shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

end Cert.LibMatmulAt

end
-- ==== Proof.LibRowReads.lean ====
/-
  General lemmas with no program in them: sums along the rows of a matrix, a column summed to one number, and changes of
  shape that only move unit axes, each read at an index; and a one-bit test widened to a word and converted, read as 0 or 1.
-/
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.LibRowReads

open Idealize.ShloMosaic Idealize.ShloMosaic.ValueIdx

/-- A one-bit word widened to 32 bits and converted as a signed integer is the bit as a number, 0 or 1. -/
theorem sitofp_widened_bit {φ : FTy} (b : BitVec 1) :
    (FloatOps.sitofp (F := Ideal) φ (b.setWidth 32) : EReal) = ((b.toNat : ℝ) : EReal) := by
  show ((((b.setWidth 32).toInt : ℤ) : ℝ) : EReal) = ((b.toNat : ℝ) : EReal)
  rw [toInt_setWidth_bit]
  norm_cast

/-- The sum along the rows of an [R, K] matrix, read at row `r`: the sum of that row's entries. -/
theorem rowSum_apply {R K : ℕ} (src : FVec Ideal ⟨2, ![R, K]⟩ .f32)
    (h : (⟨2, ![R, K]⟩ : Shape).Reduces [1] ⟨1, ![R]⟩) (hφ : FTy.f32 = FTy.f32 ∨ FTy.f32 = FTy.bf16)
    (hacc : (0x00000000#32 : BitVec 32) = 0x00000000#32) (r : Fin R) :
    multiReduction .add [1] ⟨1, ![R]⟩ src 0x00000000#32 h hφ hacc (ix1 r) = ∑ k : Fin K, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

/-- A one-entry vector viewed under any shape reads its one entry everywhere. -/
theorem shapeCast_of_one {α : Type} {t : Shape} (v : (⟨1, ![1]⟩ : Shape).Idx → α) (h : (⟨1, ![1]⟩ : Shape).ShapeCasts t)
    (j : t.Idx) : shapeCast t v h j = v (ix1 0) :=
  shapeCast_apply v h j (ix1 0) (by
    have hlt := (t.rowMajor j).isLt
    have h1 : t.numel = 1 := h
    rw [Shape.rowMajor_val_one]
    show (0 : ℕ) = (t.rowMajor j).val
    omega)

/-- The indices of a [1, n, 1] block are its middle coordinates. -/
def idxEquiv1n1 (n : ℕ) : (⟨3, ![1, n, 1]⟩ : Shape).Idx ≃ Fin n where
  toFun i := i 1
  invFun r := ix3 0 r 0
  left_inv i := funext fun a => Fin.ext (by
    have h0 : (i 0).val < 1 := (i 0).isLt
    have h2 : (i 2).val < 1 := (i 2).isLt
    match a with
    | ⟨0, _⟩ => show (0 : ℕ) = (i 0).val; omega
    | ⟨1, _⟩ => rfl
    | ⟨2, _⟩ => show (0 : ℕ) = (i 2).val; omega)
  right_inv _ := rfl

/-- So a sum over a [1, n, 1] block is the sum over its middle coordinate. -/
theorem sum_idx_1n1 {M : Type*} [AddCommMonoid M] {n : ℕ} (f : (⟨3, ![1, n, 1]⟩ : Shape).Idx → M) :
    ∑ i, f i = ∑ r : Fin n, f (ix3 0 r 0) := by
  rw [← Equiv.sum_comp (idxEquiv1n1 n).symm f]
  rfl

/-- The sum of a [1, n, 1] block over its last two axes, read at its one index: the sum of the block's entries. -/
theorem blockSum_apply {n : ℕ} (src : FVec Ideal ⟨3, ![1, n, 1]⟩ .f32)
    (h : (⟨3, ![1, n, 1]⟩ : Shape).Reduces [1, 2] ⟨1, ![1]⟩) (hφ : FTy.f32 = FTy.f32 ∨ FTy.f32 = FTy.bf16)
    (hacc : (0x00000000#32 : BitVec 32) = 0x00000000#32) (j : (⟨1, ![1]⟩ : Shape).Idx) :
    multiReduction .add [1, 2] ⟨1, ![1]⟩ src 0x00000000#32 h hφ hacc j = ∑ r : Fin n, src (ix3 0 r 0) :=
  (Ideal.multiReduction_add_total src 0x00000000#32 h (fun b => by match b with | ⟨0, _⟩ => rfl) hφ hacc j).trans (sum_idx_1n1 src)

/-- A column of `n` numbers viewed as a [1, n, 1] block reads, at `(u, r, u')`, the column at `(r, v)`. -/
theorem shapeCast_n1_1n1_apply {α : Type} {n : ℕ} (x : (⟨2, ![n, 1]⟩ : Shape).Idx → α)
    (h : (⟨2, ![n, 1]⟩ : Shape).ShapeCasts ⟨3, ![1, n, 1]⟩) (u u' v : Fin 1) (r : Fin n) :
    shapeCast ⟨3, ![1, n, 1]⟩ x h (ix3 u r u') = x (ix2 r v) :=
  shapeCast_apply x h _ _ (by
    have hu : u.val = 0 := by omega
    have hu' : u'.val = 0 := by omega
    have hv : v.val = 0 := by omega
    rw [Shape.rowMajor_val_two, Shape.rowMajor_val_three]
    show r.val * 1 + v.val = (u.val * n + r.val) * 1 + u'.val
    rw [hu, hu', hv]
    omega)

end Cert.LibRowReads

end
-- ==== Proof.Payloads.lean ====
/-
  The body's pure payloads read at an index, at the extended reals.

  For a block of 256 patch rows `x0` (fixed) and `x1` (moving) and the two weight matrices: the block's partial sum is the sum
  over its rows of the row's similarity times its keep bit, and the block's count is the sum of the keep bits. A row's keep bit
  is the test "zero count times the rounded reciprocal is at most the threshold"; a row's similarity is `tanh` of the sum over
  the 64 features of the product of the two feature values, each feature a row against a weight column. The changes of number
  format change no value; a matrix product into a zero accumulator is the plain sum of products.
-/
import proofs.«146623_j71562745086384_2_alg».proof.Proof.Gen.KernelIdeal.Skeleton
import proofs.«146623_j71562745086384_2_alg».proof.Proof.PatchSpec
import proofs.«146623_j71562745086384_2_alg».proof.Proof.LibMatmulAt
import proofs.«146623_j71562745086384_2_alg».proof.Proof.LibRowReads
import Idealize.ShloMosaic.Lib.Pipeline.Value
import Idealize.ShloMosaic.Lib.ValueIdx
import Idealize.ShloMosaic.Lib.KernelVsHost
import Idealize.ShloMosaic.PureOps.Ideal.Laws

noncomputable section

open scoped BigOperators
open Idealize.ShloMosaic Idealize.ShloMosaic.ValueIdx Cert.PatchSim Cert.LibRowReads Cert.LibMatmulAt

namespace Cert.KernelIdeal.PatchValue

open Cert.KernelIdeal Cert.KernelIdeal.Gen

/-- The body's matrix product of a [256, 4913] block by a [4913, 64] matrix, read at row `p`, column `j`. -/
theorem matmul_block_apply {φ₁ φ₂ : FTy} (lhs : FVec Ideal S256x4913 φ₁) (rhs : FVec Ideal S4913x64 φ₂) (p : Fin 256) (j : Fin 64) :
    matmul dot_S256x4913_S4913x64_S256x64_1_0_0_1_n_n none lhs rhs (constant S256x64 .f32 0x00000000#32) (ix2 p j)
      = ∑ k : Fin 4913, lhs (ix2 p k) * rhs (ix2 k j) :=
  matmul_zero_apply dot_S256x4913_S4913x64_S256x64_1_0_0_1_n_n rfl rfl
    (fun i q => by
      unfold DotDims.lhsIdx
      rw [dif_neg (show ¬(0 : Fin S256x4913.rank) ∈ dot_S256x4913_S4913x64_S256x64_1_0_0_1_n_n.lhsBatch by decide), dif_pos (show (0 : Fin S256x4913.rank) ∈ dot_S256x4913_S4913x64_S256x64_1_0_0_1_n_n.lhsNonContracting by decide)]
      rfl)
    (fun i q => dot_S256x4913_S4913x64_S256x64_1_0_0_1_n_n.lhsIdx_val_of_single rfl i q)
    (fun i q => dot_S256x4913_S4913x64_S256x64_1_0_0_1_n_n.rhsIdx_val_of_single rfl i q)
    (fun i q => by
      unfold DotDims.rhsIdx
      rw [dif_neg (show ¬(1 : Fin S4913x64.rank) ∈ dot_S256x4913_S4913x64_S256x64_1_0_0_1_n_n.rhsBatch by decide), dif_pos (show (1 : Fin S4913x64.rank) ∈ dot_S256x4913_S4913x64_S256x64_1_0_0_1_n_n.rhsNonContracting by decide)]
      rfl)
    none lhs rhs p j

/-- The keep bit of row `r` of a block. -/
theorem keep_apply (x0 : Vec Ideal S256x4913 .f32) (r : Fin 256) (u : Fin 1) :
    k0_pay7 (F := Ideal) x0 (ix2 r u) = keepFolded (fun k => x0 (ix2 r k)) := by
  unfold k0_pay7 k0_pay6 keepFolded zeros
  simp only [sitofp_apply, extui_apply, cmpf_apply, mulf_apply, broadcast_apply, shapeCast_self, shapeCast_a_a1_apply,
    sitofp_widened_bit, Ideal.cmpf_def, Ideal.ofBits_def, Ideal.ofBits_zero_f32]
  rw [rowSum_apply]
  simp only [sitofp_apply, extui_apply, cmpf_apply, broadcast_apply, sitofp_widened_bit, Ideal.cmpf_def]

/-- The block's partial sum: over its rows, similarity times keep bit. -/
theorem blockSum_payload (x0 x1 : Vec Ideal S256x4913 .f32) (w0 w1 : Vec Ideal S4913x64 .bf16) (j : S1x1.Idx) :
    k0_pay8 (F := Ideal) x0 x1 w0 w1 j
      = ∑ r : Fin 256, sim (fun k j => w0 (ix2 k j)) (fun k j => w1 (ix2 k j)) (fun k => x0 (ix2 r k)) (fun k => x1 (ix2 r k))
          * keepFolded (fun k => x0 (ix2 r k)) := by
  unfold k0_pay8 k0_pay6 sim feature
  simp only [broadcast_apply, extractAt, shapeCast_of_one]
  rw [blockSum_apply]
  refine Finset.sum_congr rfl fun r _ => ?_
  refine (shapeCast_n1_1n1_apply _ shapeCasts_S256x1_S1x256x1 0 0 0 r).trans ?_
  refine (mulf_apply _ _ _).trans ?_
  refine congrArg₂ (fun p q : EReal => p * q) ?_ (keep_apply x0 r 0)
  show Ideal.tanh (shapeCast S256x1 _ shapeCasts_S256_S256x1 (ix2 r 0)) = _
  rw [shapeCast_a_a1_apply, rowSum_apply]
  refine congrArg Ideal.tanh (Finset.sum_congr rfl fun c _ => ?_)
  rw [mulf_apply, matmul_block_apply, matmul_block_apply]
  simp only [truncf_apply, shapeCast_self]

/-- The block's count: the sum of its rows' keep bits, added to what the accumulator held. -/
theorem count_payload (x0 : Vec Ideal S256x4913 .f32) (v47 : Vec Ideal S1x1 .f32) (j : S1x1.Idx) :
    k0_pay2 (F := Ideal) (k0_pay9 x0) v47 j = v47 j + ∑ r : Fin 256, keepFolded (fun k => x0 (ix2 r k)) := by
  unfold k0_pay2 k0_pay9
  simp only [shapeCast_self, addf_apply, broadcast_apply, extractAt, shapeCast_of_one]
  rw [blockSum_apply]
  refine congrArg (v47 j + ·) (Finset.sum_congr rfl fun r _ => ?_)
  exact (shapeCast_n1_1n1_apply _ shapeCasts_S256x1_S1x256x1 0 0 0 r).trans (keep_apply x0 r 0)

/-- The sum accumulator's update: what it held plus the block's partial sum. -/
theorem sum_payload (v36 : FVec Ideal S1x1 .f32) (v42 : Vec Ideal S1x1 .f32) (j : S1x1.Idx) :
    k0_pay1 (F := Ideal) v36 v42 j = v42 j + v36 j := by
  unfold k0_pay1
  simp only [shapeCast_self, addf_apply]

/-- The accumulators start from zero. -/
theorem zero_payload4 (j : S1x1.Idx) : k0_pay4 (F := Ideal) j = 0 := by
  unfold k0_pay4
  simp only [shapeCast_self, broadcast_apply]
  exact Ideal.ofBits_zero_f32

theorem zero_payload5 (j : S1x1.Idx) : k0_pay5 (F := Ideal) j = 0 := by
  unfold k0_pay5
  simp only [shapeCast_self, broadcast_apply]
  exact Ideal.ofBits_zero_f32

/-! ## The output tile at its two lanes -/

/-- A one-entry matrix spread over the tile reads its entry everywhere. -/
theorem bcast_tile_apply (v : Vec Ideal S1x1 .f32) (y0 : Fin 8) (y1 : Fin 128) :
    broadcastTo S8x128 v broadcasts_S1x1_S8x128 (ix2 y0 y1) = v (ix2 0 0) :=
  broadcastTo_apply v broadcasts_S1x1_S8x128 (ix2 y0 y1) (ix2 0 0) (fun a => by
    match a with
    | ⟨0, _⟩ => rfl
    | ⟨1, _⟩ => rfl)

/-- The lane tests "row 0 and column 0" and "row 0 and column 1", at lanes (0, 0) and (0, 1). -/
theorem lane00_first : andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (0 : Fin 128)) = 1#1 := by decide
theorem lane00_second : andi (cmpi .eq (iota .tc S8x128 32 [0] iota_S8x128_d0_w32) (broadcast S8x128 0#32))
    (cmpi .eq (iota .tc S8x128 32 [1] iota_S8x128_d1_w32) (broadcast S8x128 1#32)) (ix2 (0 : Fin 8) (0 : Fin 128)) = 0#1 := by decide
theorem lane01_first : andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (1 : Fin 128)) = 0#1 := by decide
theorem lane01_second : andi (cmpi .eq (iota .tc S8x128 32 [0] iota_S8x128_d0_w32) (broadcast S8x128 0#32))
    (cmpi .eq (iota .tc S8x128 32 [1] iota_S8x128_d1_w32) (broadcast S8x128 1#32)) (ix2 (0 : Fin 8) (1 : Fin 128)) = 1#1 := by decide

/-- Lane (0, 0) of the tile holds the sum accumulator (plus the zero of the other select). -/
theorem tile_at_sum (v57 v60 : Vec Ideal S1x1 .f32) :
    k0_pay3 (F := Ideal) v57 v60 (ix2 (0 : Fin 8) (0 : Fin 128)) = v57 (ix2 0 0) + 0 := by
  unfold k0_pay3
  simp only [addf_apply, select_apply, broadcast_apply, shapeCast_self]
  rw [lane00_first, lane00_second, select_one, select_zero, bcast_tile_apply, Ideal.ofBits_def, Ideal.ofBits_zero_f32]

/-- Lane (0, 1) of the tile holds the count accumulator (after the zero of the other select). -/
theorem tile_at_count (v57 v60 : Vec Ideal S1x1 .f32) :
    k0_pay3 (F := Ideal) v57 v60 (ix2 (0 : Fin 8) (1 : Fin 128)) = 0 + v60 (ix2 0 0) := by
  unfold k0_pay3
  simp only [addf_apply, select_apply, broadcast_apply, shapeCast_self]
  rw [lane01_first, lane01_second, select_one, select_zero, bcast_tile_apply, Ideal.ofBits_def, Ideal.ofBits_zero_f32]

end Cert.KernelIdeal.PatchValue

end
-- ==== Proof.HostSide.lean ====
/-
  What the kernel's grid finds in its four input arrays, and what a point's blocks are in them.

  Before the grid runs, the host cuts each volume into its 3375 patches of 4913 numbers (a change of shape, a transposition
  of the axes, a change of shape: the same three steps on both sides of the claim, so the patch matrix is one opaque term
  here), and appends 209 rows of zeros to make 3584 = 14 · 256 rows. The weights only change format, which changes no value.
  Point `t` of the grid (core `t / 7`, step `t % 7`) is handed rows `256 t … 256 t + 255` of each padded patch matrix and
  the whole of each weight matrix.
-/
import proofs.«146623_j71562745086384_2_alg».proof.Proof.Gen.KernelIdeal.Frame
import proofs.«146623_j71562745086384_2_alg».proof.Proof.PatchSpec
import Idealize.ShloMosaic.Lib.StableHlo.Run
import Idealize.ShloMosaic.Lib.Pipeline.Value
import Idealize.ShloMosaic.Lib.ValueIdx
import Idealize.ShloMosaic.Lib.KernelVsHost
import Idealize.ShloMosaic.Lib.Tactic

noncomputable section

open Idealize.ShloMosaic Idealize.ShloMosaic.TcCoe Idealize.SL.Sem Idealize.ShloMosaic.ValueIdx Cert.PatchSim

namespace Cert.KernelIdeal.PatchValue

open Cert.KernelIdeal Cert.KernelIdeal.Gen

/-! ## The patch matrix and its rows -/

/-- A volume's patch matrix: 3375 rows of 4913 numbers. -/
def patchMat {F : FTy → Type} [FloatOps F] (x : (⟨S1x1x255x255x255, .f32⟩ : BufTy).Contents (Elt F)) :
    (⟨S3375x4913, .f32⟩ : BufTy).Contents (Elt F) :=
  shapeCast _ (transpose S15x15x15x17x17x17 [0, 2, 4, 1, 3, 5] (shapeCast _ (shapeCast _ x shapeCasts_S1x1x255x255x255_S255x255x255) shapeCasts_S255x255x255_S15x17x15x17x15x17) transposes_S15x17x15x17x15x17_S15x15x15x17x17x17_0_2_4_1_3_5) shapeCasts_S15x15x15x17x17x17_S3375x4913

/-- The padded matrix's row `R` is that row. -/
theorem pad_row (P : (⟨S3375x4913, .f32⟩ : BufTy).Contents (Elt Ideal)) (R : ℕ) (hR : R < 3584) (k : Fin 4913) :
    pad S3584x4913 ![0, 0] ![209, 0] ![0, 0] P (sitofp (F := Ideal) .f32 (constantI S_ 32 0#32))
      pads_S3375x4913_S3584x4913_02090_000 h_S_ (ix2 ⟨R, hR⟩ k) = rowsOf P R k := by
  unfold rowsOf
  by_cases h : R < 3375
  · rw [dif_pos h]
    exact pad_apply_of_inside _ _ _ P _ pads_S3375x4913_S3584x4913_02090_000 h_S_ _ (ix2 ⟨R, h⟩ k) (fun a => by
      match a with
      | ⟨0, _⟩ => show R = 0 + R * (0 + 1); omega
      | ⟨1, _⟩ => show k.val = 0 + k.val * (0 + 1); omega)
  · rw [dif_neg h]
    refine (pad_apply_of_not_inside _ _ _ P _ pads_S3375x4913_S3584x4913_02090_000 h_S_ _ (0 : Fin 2) (fun hh => h ?_)).trans ?_
    · have h3 : (R - 0) / (0 + 1) < 3375 := hh.2.2
      omega
    · show ((((0#32 : BitVec 32).toInt : ℤ) : ℝ) : EReal) = 0
      simp

/-! ## The arrays as the grid finds them -/

section Arrays
variable {F : FTy → Type} [FloatOps F]
variable (m : (ℓ : Loc nD τ sig) → Buf (Elt F) ℓ)

theorem V_fixed (c : Dev nD) : (V m c main_v8 : S3584x4913.Idx → Elt F .f32)
    = pad S3584x4913 ![0, 0] ![209, 0] ![0, 0] (patchMat (m ((c.tc : Thread nD τ).loc main_arg0)))
        (sitofp (F := F) .f32 (constantI S_ 32 0#32)) pads_S3375x4913_S3584x4913_02090_000 h_S_ := by
  dsimp only [V, V0]
  simp only [hostOps0, hostOps0_1, hostOps0_2, hostOps0_3, hostOps0_4, List.flatten_cons, List.flatten_nil, List.append_nil, List.cons_append, List.nil_append]
  after_results <;> rfl

theorem V_moving (c : Dev nD) : (V m c main_v9 : S3584x4913.Idx → Elt F .f32)
    = pad S3584x4913 ![0, 0] ![209, 0] ![0, 0] (patchMat (m ((c.tc : Thread nD τ).loc main_arg1)))
        (sitofp (F := F) .f32 (constantI S_ 32 0#32)) pads_S3375x4913_S3584x4913_02090_000 h_S_ := by
  dsimp only [V, V0]
  simp only [hostOps0, hostOps0_1, hostOps0_2, hostOps0_3, hostOps0_4, List.flatten_cons, List.flatten_nil, List.append_nil, List.cons_append, List.nil_append]
  after_results <;> rfl

theorem V_wf (c : Dev nD) : (V m c main_v10 : S4913x64.Idx → Elt F .bf16)
    = truncf .bf16 (m ((c.tc : Thread nD τ).loc main_arg2)) bitsLt_bf16_f32 := by
  dsimp only [V, V0]
  simp only [hostOps0, hostOps0_1, hostOps0_2, hostOps0_3, hostOps0_4, List.flatten_cons, List.flatten_nil, List.append_nil, List.cons_append, List.nil_append]
  after_results <;> rfl

theorem V_wm (c : Dev nD) : (V m c main_v11 : S4913x64.Idx → Elt F .bf16)
    = truncf .bf16 (m ((c.tc : Thread nD τ).loc main_arg3)) bitsLt_bf16_f32 := by
  dsimp only [V, V0]
  simp only [hostOps0, hostOps0_1, hostOps0_2, hostOps0_3, hostOps0_4, List.flatten_cons, List.flatten_nil, List.append_nil, List.cons_append, List.nil_append]
  after_results <;> rfl

/-- Where the windows' blocks sit at each point: the patch windows at row block `t`, the weights whole, the output tile at
    the core's number. Decided over the fourteen points. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 7 ∧ win0_4.index t (1 : Fin 2) = 0 :=
  (by decide +kernel : ∀ t : Fin grid0.N, _)

theorem blk_fixed (c : Dev nD) (t : Fin cfg0.N) (r : Fin 256) (k : Fin 4913) (hR : 256 * t.val + r.val < 3584) :
    (iblk m c 0 t : Vec F S256x4913 .f32) (ix2 r k)
      = (V m c main_v8 : S3584x4913.Idx → Elt F .f32) (ix2 ⟨256 * t.val + r.val, hR⟩ k) := by
  obtain ⟨h00, h01, -⟩ := block_indices t
  unfold iblk
  rw [View.read_apply]
  show V m c main_v8 _ = V m c main_v8 _
  refine congrArg (V m c main_v8) (funext fun a => Fin.ext ?_)
  match a with
  | ⟨0, _⟩ => show win0_0.index t 0 * 256 + 1 * r.val = 256 * t.val + r.val; rw [h00]; omega
  | ⟨1, _⟩ => show win0_0.index t 1 * 4913 + 1 * k.val = k.val; rw [h01]; omega

theorem blk_moving (c : Dev nD) (t : Fin cfg0.N) (r : Fin 256) (k : Fin 4913) (hR : 256 * t.val + r.val < 3584) :
    (iblk m c 1 t : Vec F S256x4913 .f32) (ix2 r k)
      = (V m c main_v9 : S3584x4913.Idx → Elt F .f32) (ix2 ⟨256 * t.val + r.val, hR⟩ k) := by
  obtain ⟨-, -, h10, h11, -⟩ := block_indices t
  unfold iblk
  rw [View.read_apply]
  show V m c main_v9 _ = V m c main_v9 _
  refine congrArg (V m c main_v9) (funext fun a => Fin.ext ?_)
  match a with
  | ⟨0, _⟩ => show win0_1.index t 0 * 256 + 1 * r.val = 256 * t.val + r.val; rw [h10]; omega
  | ⟨1, _⟩ => show win0_1.index t 1 * 4913 + 1 * k.val = k.val; rw [h11]; omega

theorem blk_wf (c : Dev nD) (t : Fin cfg0.N) (k : Fin 4913) (j : Fin 64) :
    (iblk m c 2 t : Vec F S4913x64 .bf16) (ix2 k j) = (V m c main_v10 : S4913x64.Idx → Elt F .bf16) (ix2 k j) := by
  obtain ⟨-, -, -, -, h20, h21, -⟩ := block_indices t
  unfold iblk
  rw [View.read_apply]
  show V m c main_v10 _ = V m c main_v10 _
  refine congrArg (V m c main_v10) (funext fun a => Fin.ext ?_)
  match a with
  | ⟨0, _⟩ => show win0_2.index t 0 * 4913 + 1 * k.val = k.val; rw [h20]; omega
  | ⟨1, _⟩ => show win0_2.index t 1 * 64 + 1 * j.val = j.val; rw [h21]; omega

theorem blk_wm (c : Dev nD) (t : Fin cfg0.N) (k : Fin 4913) (j : Fin 64) :
    (iblk m c 3 t : Vec F S4913x64 .bf16) (ix2 k j) = (V m c main_v11 : S4913x64.Idx → Elt F .bf16) (ix2 k j) := by
  obtain ⟨-, -, -, -, -, -, h30, h31, -⟩ := block_indices t
  unfold iblk
  rw [View.read_apply]
  show V m c main_v11 _ = V m c main_v11 _
  refine congrArg (V m c main_v11) (funext fun a => Fin.ext ?_)
  match a with
  | ⟨0, _⟩ => show win0_3.index t 0 * 4913 + 1 * k.val = k.val; rw [h30]; omega
  | ⟨1, _⟩ => show win0_3.index t 1 * 64 + 1 * j.val = j.val; rw [h31]; omega

end Arrays

/-! ## A point's blocks, at the extended reals -/

section AtIdeal
variable (m : (ℓ : Loc nD τ sig) → Buf (Elt Ideal) ℓ)

/-- The rows of the fixed volume's patches, of the moving volume's, and the two weight matrices, as the launch memory has them. -/
abbrev fixedRows (c : Dev nD) : ℕ → Fin 4913 → EReal := rowsOf (patchMat (m ((c.tc : Thread nD τ).loc main_arg0)))
abbrev movingRows (c : Dev nD) : ℕ → Fin 4913 → EReal := rowsOf (patchMat (m ((c.tc : Thread nD τ).loc main_arg1)))
abbrev weightsF (c : Dev nD) : Fin 4913 → Fin 64 → EReal := fun k j => m ((c.tc : Thread nD τ).loc main_arg2) (ix2 k j)
abbrev weightsM (c : Dev nD) : Fin 4913 → Fin 64 → EReal := fun k j => m ((c.tc : Thread nD τ).loc main_arg3) (ix2 k j)

theorem point_lt (t : Fin cfg0.N) (r : Fin 256) : 256 * t.val + r.val < 3584 := by
  have hN : t.val < 14 := lt_of_lt_of_eq t.isLt (show cfg0.N = 14 from N_0)
  have := r.isLt
  omega

/-- Row `r` of point `t`'s fixed block is row `256 t + r` of the fixed patches. -/
theorem row_fixed (c : Dev nD) (t : Fin cfg0.N) (r : Fin 256) :
    (fun k => (iblk m c 0 t : Vec Ideal S256x4913 .f32) (ix2 r k)) = fixedRows m c (256 * t.val + r.val) := by
  funext k
  rw [blk_fixed m c t r k (point_lt t r), V_fixed m c, pad_row]

theorem row_moving (c : Dev nD) (t : Fin cfg0.N) (r : Fin 256) :
    (fun k => (iblk m c 1 t : Vec Ideal S256x4913 .f32) (ix2 r k)) = movingRows m c (256 * t.val + r.val) := by
  funext k
  rw [blk_moving m c t r k (point_lt t r), V_moving m c, pad_row]

theorem mat_wf (c : Dev nD) (t : Fin cfg0.N) :
    (fun k j => (iblk m c 2 t : Vec Ideal S4913x64 .bf16) (ix2 k j)) = weightsF m c := by
  funext k j
  rw [blk_wf m c t k j, V_wf m c]
  rfl

theorem mat_wm (c : Dev nD) (t : Fin cfg0.N) :
    (fun k j => (iblk m c 3 t : Vec Ideal S4913x64 .bf16) (ix2 k j)) = weightsM m c := by
  funext k j
  rw [blk_wm m c t k j, V_wm m c]
  rfl

end AtIdeal

end Cert.KernelIdeal.PatchValue

end
-- ==== Proof.Accumulate.lean ====
/-
  What the two accumulators hold after each grid point, and the tile a core's last point writes.

  Block `b` (rows `256 b … 256 b + 255` of the padded patch matrices) contributes its partial sum and its count of kept
  rows. A core's run is seven consecutive blocks: the accumulators are set to zero at the run's first point and the block's
  contribution is added at every point, so after point `n` they hold the sums over the blocks from the run's first one up
  to `n`. At the run's last point the two totals go into lanes (0, 0) and (0, 1) of the core's output tile.
-/
import proofs.«146623_j71562745086384_2_alg».proof.Proof.Pieces
import proofs.«146623_j71562745086384_2_alg».proof.Proof.Payloads
import proofs.«146623_j71562745086384_2_alg».proof.Proof.HostSide

noncomputable section

open scoped BigOperators
open Idealize.ShloMosaic Idealize.ShloMosaic.TcCoe Idealize.SL.Sem Idealize.ShloMosaic.ValueIdx Cert.PatchSim

namespace Cert.KernelIdeal.PatchValue

open Cert.KernelIdeal Cert.KernelIdeal.Gen

variable (m : (ℓ : Loc nD τ sig) → Buf (Elt Ideal) ℓ)

/-- Row `R`'s kept similarity, and its keep bit. -/
def rowTerm (c : Dev nD) (R : ℕ) : EReal :=
  sim (weightsF m c) (weightsM m c) (fixedRows m c R) (movingRows m c R) * keepFolded (fixedRows m c R)
def rowKept (c : Dev nD) (R : ℕ) : EReal := keepFolded (fixedRows m c R)

/-- Block `b`'s partial sum and count. -/
def blockTerm (c : Dev nD) (b : ℕ) : EReal := ∑ r ∈ Finset.range 256, rowTerm m c (256 * b + r)
def blockKept (c : Dev nD) (b : ℕ) : EReal := ∑ r ∈ Finset.range 256, rowKept m c (256 * b + r)

/-- The partial sum the body computes at point `t` is block `t`'s. -/
theorem blockTerm_at (c : Dev nD) (t : Fin cfg0.N) (j : S1x1.Idx) :
    k0_pay8 (F := Ideal) (iblk m c 0 t) (iblk m c 1 t) (iblk m c 2 t) (iblk m c 3 t) j = blockTerm m c t.val := by
  rw [blockSum_payload]
  unfold blockTerm
  rw [← Fin.sum_univ_eq_sum_range (fun r => rowTerm m c (256 * t.val + r)) 256]
  refine Finset.sum_congr rfl fun r _ => ?_
  unfold rowTerm
  rw [row_fixed m c t r, row_moving m c t r, mat_wf m c t, mat_wm m c t]

/-- The count the body computes at point `t` is block `t`'s. -/
theorem blockKept_at (c : Dev nD) (t : Fin cfg0.N) :
    ∑ r : Fin 256, keepFolded (fun k => (iblk m c 0 t : Vec Ideal S256x4913 .f32) (ix2 r k)) = blockKept m c t.val := by
  unfold blockKept
  rw [← Fin.sum_univ_eq_sum_range (fun r => rowKept m c (256 * t.val + r)) 256]
  refine Finset.sum_congr rfl fun r _ => ?_
  unfold rowKept
  rw [row_fixed m c t r]

/-- After point `n` the accumulators hold the sums over the blocks of `n`'s run up to `n`. -/
theorem acc_after (c : Dev nD) : ∀ (n : ℕ) (h : n < cfg0.N) (j : S1x1.Idx),
    (outsAt0 m c n h).2.1 j = ∑ b ∈ Finset.Ico (7 * (n / 7)) (n + 1), blockTerm m c b
    ∧ (outsAt0 m c n h).2.2 j = ∑ b ∈ Finset.Ico (7 * (n / 7)) (n + 1), blockKept m c b
  | 0, h, j => by
    rw [outsAt0_A m c ⟨0, h⟩ rfl (by show ¬(0 % 7 = 6); decide)]
    dsimp only
    rw [sout0_A_0_eq, sout0_A_1_eq, sum_payload, count_payload, zero_payload4, zero_payload5,
      blockTerm_at m c ⟨0, h⟩, blockKept_at m c ⟨0, h⟩]
    simp
  | n + 1, h, j => by
    have hN : cfg0.N = 14 := N_0
    obtain ⟨ih1, ih2⟩ := acc_after c n (Nat.lt_of_succ_lt h) j
    by_cases h0 : (n + 1) % 7 = 0
    · have h1 : ¬(n + 1) % 7 = 6 := by omega
      have e : 7 * ((n + 1) / 7) = n + 1 := by omega
      rw [outsAt0_A m c ⟨n + 1, h⟩ h0 h1]
      dsimp only
      rw [sout0_A_0_eq, sout0_A_1_eq, sum_payload, count_payload, zero_payload4, zero_payload5,
        blockTerm_at m c ⟨n + 1, h⟩, blockKept_at m c ⟨n + 1, h⟩, e]
      simp
    · have e : 7 * ((n + 1) / 7) = 7 * (n / 7) := by omega
      have hle : 7 * (n / 7) ≤ n + 1 := by omega
      rw [e, Finset.sum_Ico_succ_top hle, Finset.sum_Ico_succ_top hle, ← ih1, ← ih2]
      by_cases h1 : (n + 1) % 7 = 6
      · rw [outsAt0_C m c ⟨n + 1, h⟩ h0 h1]
        dsimp only
        rw [sout0_C_0_eq, sout0_C_1_eq, sum_payload, count_payload, blockTerm_at m c ⟨n + 1, h⟩, blockKept_at m c ⟨n + 1, h⟩]
        exact ⟨rfl, rfl⟩
      · rw [outsAt0_B m c ⟨n + 1, h⟩ h0 h1]
        dsimp only
        rw [sout0_B_0_eq, sout0_B_1_eq, sum_payload, count_payload, blockTerm_at m c ⟨n + 1, h⟩, blockKept_at m c ⟨n + 1, h⟩]
        exact ⟨rfl, rfl⟩

/-- At the last point of a run the output tile is built from the two accumulators as that point leaves them. -/
theorem tile_after (c : Dev nD) (n : ℕ) (h : n < cfg0.N) (h6 : n % 7 = 6) :
    (outsAt0 m c n h).1 = k0_pay3 (outsAt0 m c n h).2.1 (outsAt0 m c n h).2.2 := by
  have h0 : ¬n % 7 = 0 := by omega
  rw [outsAt0_C m c ⟨n, h⟩ h0 h6]
  dsimp only
  rw [out0_C_4_eq, sout0_C_0_eq, sout0_C_1_eq]

end Cert.KernelIdeal.PatchValue

end
-- ==== Proof.KernelValue.lean ====
/-
  The kernel's result as a function of the launch memory.

  Only the last point of each core's run writes the output back: point 6 writes rows 0–7 of the [16, 128] result array and
  point 13 rows 8–15, each the tile built from that run's two totals. After the grid the host reads lanes (0, 0), (8, 0) for the
  two partial sums and (0, 1), (8, 1) for the two counts, adds each pair, and divides the sum by the count, or by one if the
  count is less.
-/
import proofs.«146623_j71562745086384_2_alg».proof.Proof.Accumulate
import Idealize.ShloMosaic.Lib.StableHlo.Run

noncomputable section

open scoped BigOperators
open Idealize.ShloMosaic Idealize.ShloMosaic.TcCoe Idealize.SL.Sem Idealize.ShloMosaic.ValueIdx Cert.PatchSim
open Idealize.ShloMosaic.Pipeline (Dat)

namespace Cert.KernelIdeal.PatchValue

open Cert.KernelIdeal Cert.KernelIdeal.Gen

variable (m : (ℓ : Loc nD τ sig) → Buf (Elt Ideal) ℓ) (ρ : Dev nD → PrngReg)

theorem six_lt : 6 < cfg0.N := by rw [show cfg0.N = 14 from N_0]; decide
theorem thirteen_lt : 13 < cfg0.N := by rw [show cfg0.N = 14 from N_0]; decide

/-- The tiles the two runs' last points leave. -/
def tileFirst (c : Dev nD) : S8x128.Idx → EReal := (outsAt0 m c 6 six_lt).1
def tileSecond (c : Dev nD) : S8x128.Idx → EReal := (outsAt0 m c 13 thirteen_lt).1

/-- The result array after the grid: the first run's tile over rows 0–7, the second's over rows 8–15. -/
def outFn (c : Dev nD) : S16x128.Idx → EReal := fun i =>
  if (i 0).val < 8 then tileFirst m c (ix2 ⟨(i 0).val % 8, Nat.mod_lt _ (by decide)⟩ ⟨(i 1).val, idx2_lt1 i⟩)
  else tileSecond m c (ix2 ⟨(i 0).val % 8, Nat.mod_lt _ (by decide)⟩ ⟨(i 1).val, idx2_lt1 i⟩)

abbrev outArray (c : Dev nD) : Buf (Elt Ideal) ((c.tc : Thread nD τ).loc main_v12) := outFn m c

/-- What a writing point writes back is its block of that array. -/
theorem flushed_eq (c : Dev nD) (t : Fin cfg0.N) (hf : (cfg0.win 4).flush t = true) :
    (dats m 0 c).flushed 4 t = ((cfg0.win 4).blk t).view.read (Elt Ideal) (outArray m c) := by
  have hN : cfg0.N = 14 := N_0
  have h6 : t.val % 7 = 6 := (flush0_4 t).mp hf
  have hlt : t.val < 14 := lt_of_lt_of_eq t.isLt hN
  have hs0 : win0_4.size (0 : Fin 2) = 8 := rfl
  have hs1 : win0_4.size (1 : Fin 2) = 128 := rfl
  rcases (by omega : t.val = 6 ∨ t.val = 13) with h | h
  · obtain rfl : t = t0_6 := Fin.ext h
    show (cfg0.win 4).cut (grid0.coords t0_6) ((dats m 0 c).after 4 t0_6) = _
    rw [after0_4]
    funext y
    rw [View.read_apply]
    have hy0 : (y 0).val < 8 := lt_of_lt_of_le (y 0).isLt (hs0 ▸ win0_4.xsize_le (grid0.coords t0_6) 0)
    have e0 : ((((cfg0.win 4).blk t0_6).view.emb y) 0).val = (y 0).val := by
      show win0_4.index t0_6 0 * 8 + 1 * (y 0).val = _
      rw [show win0_4.index t0_6 0 = 0 from by decide +kernel]; omega
    have e1 : ((((cfg0.win 4).blk t0_6).view.emb y) 1).val = (y 1).val := by
      show win0_4.index t0_6 1 * 128 + 1 * (y 1).val = _
      rw [show win0_4.index t0_6 1 = 0 from by decide +kernel]; omega
    show (outsAt0 m c 6 _).1 (win0_4.xinj (grid0.coords t0_6) y) = outFn m c (((cfg0.win 4).blk t0_6).view.emb y)
    unfold outFn
    rw [if_pos (by rw [e0]; exact hy0)]
    unfold tileFirst
    refine congrArg _ (funext fun a => Fin.ext ?_)
    match a with
    | ⟨0, _⟩ => show (y 0).val = ((((cfg0.win 4).blk t0_6).view.emb y) 0).val % 8; rw [e0]; omega
    | ⟨1, _⟩ => show (y 1).val = ((((cfg0.win 4).blk t0_6).view.emb y) 1).val; rw [e1]
  · obtain rfl : t = t0_13 := Fin.ext h
    show (cfg0.win 4).cut (grid0.coords t0_13) ((dats m 0 c).after 4 t0_13) = _
    rw [after0_4]
    funext y
    rw [View.read_apply]
    have hy0 : (y 0).val < 8 := lt_of_lt_of_le (y 0).isLt (hs0 ▸ win0_4.xsize_le (grid0.coords t0_13) 0)
    have e0 : ((((cfg0.win 4).blk t0_13).view.emb y) 0).val = 8 + (y 0).val := by
      show win0_4.index t0_13 0 * 8 + 1 * (y 0).val = _
      rw [show win0_4.index t0_13 0 = 1 from by decide +kernel]; omega
    have e1 : ((((cfg0.win 4).blk t0_13).view.emb y) 1).val = (y 1).val := by
      show win0_4.index t0_13 1 * 128 + 1 * (y 1).val = _
      rw [show win0_4.index t0_13 1 = 0 from by decide +kernel]; omega
    show (outsAt0 m c 13 _).1 (win0_4.xinj (grid0.coords t0_13) y) = outFn m c (((cfg0.win 4).blk t0_13).view.emb y)
    unfold outFn
    rw [if_neg (by rw [e0]; omega)]
    unfold tileSecond
    refine congrArg _ (funext fun a => Fin.ext ?_)
    match a with
    | ⟨0, _⟩ => show (y 0).val = ((((cfg0.win 4).blk t0_13).view.emb y) 0).val % 8; rw [e0]; omega
    | ⟨1, _⟩ => show (y 1).val = ((((cfg0.win 4).blk t0_13).view.emb y) 1).val; rw [e1]

/-- The two written blocks cover the array, so after the grid it holds `outArray`. -/
theorem final_out (c : Dev nD) : (dats m 0 c).arrAt 4 cfg0.N = outArray m c :=
  (dats m 0 c).arrAt_eq_of_cover 4 (outArray m c) (flushed_eq m c) fun i => by
    have h0 : (i 0 : Nat) < 16 := (i 0).isLt
    have h1 : (i 1 : Nat) < 128 := (i 1).isLt
    by_cases hi : (i 0 : Nat) < 8
    · refine ⟨t0_6, (flush0_4 t0_6).mpr rfl, ?_⟩
      show i ∈ ((View.whole main_v12).slice (win0_4.rect t0_6)).set
      rw [View.set_slice_whole, Rect.mem_set_unit]
      intro a
      match a with
      | ⟨0, _⟩ =>
        show win0_4.index t0_6 0 * win0_4.size 0 ≤ (i 0 : Nat) ∧ (i 0 : Nat) < win0_4.index t0_6 0 * win0_4.size 0 + win0_4.xsize (grid0.coords t0_6) 0
        rw [show win0_4.index t0_6 0 * win0_4.size 0 = 0 from by decide +kernel, show win0_4.xsize (grid0.coords t0_6) 0 = 8 from by decide +kernel]; omega
      | ⟨1, _⟩ =>
        show win0_4.index t0_6 1 * win0_4.size 1 ≤ (i 1 : Nat) ∧ (i 1 : Nat) < win0_4.index t0_6 1 * win0_4.size 1 + win0_4.xsize (grid0.coords t0_6) 1
        rw [show win0_4.index t0_6 1 * win0_4.size 1 = 0 from by decide +kernel, show win0_4.xsize (grid0.coords t0_6) 1 = 128 from by decide +kernel]; omega
    · refine ⟨t0_13, (flush0_4 t0_13).mpr rfl, ?_⟩
      show i ∈ ((View.whole main_v12).slice (win0_4.rect t0_13)).set
      rw [View.set_slice_whole, Rect.mem_set_unit]
      intro a
      match a with
      | ⟨0, _⟩ =>
        show win0_4.index t0_13 0 * win0_4.size 0 ≤ (i 0 : Nat) ∧ (i 0 : Nat) < win0_4.index t0_13 0 * win0_4.size 0 + win0_4.xsize (grid0.coords t0_13) 0
        rw [show win0_4.index t0_13 0 * win0_4.size 0 = 8 from by decide +kernel, show win0_4.xsize (grid0.coords t0_13) 0 = 8 from by decide +kernel]; omega
      | ⟨1, _⟩ =>
        show win0_4.index t0_13 1 * win0_4.size 1 ≤ (i 1 : Nat) ∧ (i 1 : Nat) < win0_4.index t0_13 1 * win0_4.size 1 + win0_4.xsize (grid0.coords t0_13) 1
        rw [show win0_4.index t0_13 1 * win0_4.size 1 = 0 from by decide +kernel, show win0_4.xsize (grid0.coords t0_13) 1 = 128 from by decide +kernel]; omega

/-! ## The four lanes the host reads -/

/-- The first run's totals and the second's. -/
def sumFirst (c : Dev nD) : EReal := ∑ b ∈ Finset.Ico 0 7, blockTerm m c b
def sumSecond (c : Dev nD) : EReal := ∑ b ∈ Finset.Ico 7 14, blockTerm m c b
def keptFirst (c : Dev nD) : EReal := ∑ b ∈ Finset.Ico 0 7, blockKept m c b
def keptSecond (c : Dev nD) : EReal := ∑ b ∈ Finset.Ico 7 14, blockKept m c b

theorem out_00 (c : Dev nD) : outFn m c (ix2 (0 : Fin 16) (0 : Fin 128)) = sumFirst m c + 0 := by
  unfold outFn
  rw [if_pos (by decide)]
  unfold tileFirst
  rw [tile_after m c 6 six_lt rfl]
  exact (tile_at_sum _ _).trans (congrArg (· + 0) ((acc_after m c 6 six_lt (ix2 0 0)).1))

theorem out_01 (c : Dev nD) : outFn m c (ix2 (0 : Fin 16) (1 : Fin 128)) = 0 + keptFirst m c := by
  unfold outFn
  rw [if_pos (by decide)]
  unfold tileFirst
  rw [tile_after m c 6 six_lt rfl]
  exact (tile_at_count _ _).trans (congrArg (0 + ·) ((acc_after m c 6 six_lt (ix2 0 0)).2))

theorem out_80 (c : Dev nD) : outFn m c (ix2 (8 : Fin 16) (0 : Fin 128)) = sumSecond m c + 0 := by
  unfold outFn
  rw [if_neg (by decide)]
  unfold tileSecond
  rw [tile_after m c 13 thirteen_lt rfl]
  exact (tile_at_sum _ _).trans (congrArg (· + 0) ((acc_after m c 13 thirteen_lt (ix2 0 0)).1))

theorem out_81 (c : Dev nD) : outFn m c (ix2 (8 : Fin 16) (1 : Fin 128)) = 0 + keptSecond m c := by
  unfold outFn
  rw [if_neg (by decide)]
  unfold tileSecond
  rw [tile_after m c 13 thirteen_lt rfl]
  exact (tile_at_count _ _).trans (congrArg (0 + ·) ((acc_after m c 13 thirteen_lt (ix2 0 0)).2))

/-- One lane of the result array, cut out and read as a scalar. -/
theorem lane_apply (A : S16x128.Idx → EReal) (off : Fin 2 → Nat) (h : S16x128.Slices off S1x1) (h' : S1x1.ShapeCasts S_)
    (i : S_.Idx) (a : Fin 16) (b : Fin 128) (ha : off 0 = a.val) (hb : off 1 = b.val) :
    shapeCast S_ (extractStridedSlice S1x1 off A h) h' i = A (ix2 a b) := by
  unfold shapeCast
  have h0 : ((Shape.reshapeEquiv h' i) 0).val < 1 := ((Shape.reshapeEquiv h' i) 0).isLt
  have h1 : ((Shape.reshapeEquiv h' i) 1).val < 1 := ((Shape.reshapeEquiv h' i) 1).isLt
  refine extractStridedSlice_apply off A h _ (ix2 a b) (fun x => ?_)
  match x with
  | ⟨0, _⟩ => show a.val = off 0 + ((Shape.reshapeEquiv h' i) 0).val; omega
  | ⟨1, _⟩ => show b.val = off 1 + ((Shape.reshapeEquiv h' i) 1).val; omega

/-- The kernel's result. -/
def kernelResult (c : Dev nD) : S_.Idx → EReal := fun _ =>
  Ideal.div ((sumFirst m c + 0) + (sumSecond m c + 0))
    (max ((0 + keptFirst m c) + (0 + keptSecond m c)) (Ideal.ofBits .f32 0x3F800000#32))

/-- The host lines after the grid compute it from the result array. -/
theorem tail_value (c : Dev nD) :
    Pipeline.afterTail₀ cfgs (dats m) 0 (V0 m) [hostOps1] c main_v24 = kernelResult m c := by
  unfold Pipeline.afterTail₀
  show StableHlo.after hostOps1 _ (Proc.devRef .tc main_v24) = _
  after_results
  have hA : Pipeline.withArrays (cfgs 0).spec c (V0 m c) (fun w => (dats m 0 c).arrAt w (cfgs 0).N) (Proc.tc.devRef main_v12)
      = outFn m c :=
    (Pipeline.withArrays_arr spec0 launch0.win.arr_inj c _ _ 4).trans (final_out m c)
  rw [hA]
  funext i
  show Ideal.div (shapeCast S_ (extractStridedSlice S1x1 ![0, 0] (outFn m c) slices_S16x128_S1x1_0_0) shapeCasts_S1x1_S_ i
        + shapeCast S_ (extractStridedSlice S1x1 ![8, 0] (outFn m c) slices_S16x128_S1x1_8_0) shapeCasts_S1x1_S_ i)
      (max (shapeCast S_ (extractStridedSlice S1x1 ![0, 1] (outFn m c) slices_S16x128_S1x1_0_1) shapeCasts_S1x1_S_ i
        + shapeCast S_ (extractStridedSlice S1x1 ![8, 1] (outFn m c) slices_S16x128_S1x1_8_1) shapeCasts_S1x1_S_ i)
        (Ideal.ofBits .f32 0x3F800000#32)) = _
  rw [lane_apply (outFn m c) ![0, 0] _ _ i 0 0 rfl rfl, lane_apply (outFn m c) ![8, 0] _ _ i 8 0 rfl rfl,
    lane_apply (outFn m c) ![0, 1] _ _ i 0 1 rfl rfl, lane_apply (outFn m c) ![8, 1] _ _ i 8 1 rfl rfl,
    out_00, out_80, out_01, out_81]
  rfl

/-- The run, read: the result at `kernelResult`, the four arguments unchanged. -/
theorem run : θ_run defs (onTc (τ := τ) (main (F := Ideal))) ⟨m, fun _ => 0, ρ⟩ fun r => ∀ c : Dev nD,
      r.2.mem ((c.tc : Thread nD τ).loc main_v24) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PatchValue

end
-- ==== Proof.RefValue.lean ====
/-
  The reference's result as a function of its arguments: for each of the 3375 patches its similarity times its keep bit, summed,
  over the number of kept patches (or over one if that is less). A patch is kept when its zero count divided by 4913 is at most
  the threshold. The sums start from a zero initial value, which adds nothing.
-/
import proofs.«146623_j71562745086384_2_alg».proof.Proof.RefReadP
import proofs.«146623_j71562745086384_2_alg».proof.Proof.PatchSpec

noncomputable section

open scoped BigOperators
open Idealize.ShloMosaic Idealize.ShloMosaic.ValueIdx Cert.PatchSim

namespace Cert.ReferenceIdeal.RefValue

open Cert.ReferenceIdeal Cert.ReferenceIdeal.Gen Cert.ReferenceIdeal.ReadP

/-- The indices of a vector are its coordinates, so a sum over them is the sum over the coordinate. -/
def idxEquiv1 (n : ℕ) : (⟨1, ![n]⟩ : Shape).Idx ≃ Fin n where
  toFun i := i 0
  invFun r := ix1 r
  left_inv i := (eq_ix1 i).symm
  right_inv _ := rfl

theorem sum_idx1 {M : Type*} [AddCommMonoid M] {n : ℕ} (f : (⟨1, ![n]⟩ : Shape).Idx → M) :
    ∑ i, f i = ∑ r : Fin n, f (ix1 r) := by
  rw [← Equiv.sum_comp (idxEquiv1 n).symm f]
  rfl

variable (x0 x1 : (⟨S1x1x255x255x255, .f32⟩ : BufTy).Contents (Elt Ideal)) (x2 x3 : (⟨S4913x64, .f32⟩ : BufTy).Contents (Elt Ideal))

theorem idx11 (R : Fin 3375) (k : Fin 4913) : idx_main_v11 (ix1 R) k = ix2 R k :=
  funext fun a => Fin.ext (by match a with | ⟨0, _⟩ => rfl | ⟨1, _⟩ => rfl)
theorem idx20 (R : Fin 3375) (k : Fin 64) : idx_main_v20 (ix1 R) k = ix2 R k :=
  funext fun a => Fin.ext (by match a with | ⟨0, _⟩ => rfl | ⟨1, _⟩ => rfl)
theorem lidx17 (R : Fin 3375) (j : Fin 64) (k : Fin 4913) : lidx_main_v17 (ix2 R j) k = ix2 R k :=
  funext fun a => Fin.ext (by match a with | ⟨0, _⟩ => rfl | ⟨1, _⟩ => rfl)
theorem ridx17 (R : Fin 3375) (j : Fin 64) (k : Fin 4913) : ridx_main_v17 (ix2 R j) k = ix2 k j :=
  funext fun a => Fin.ext (by match a with | ⟨0, _⟩ => rfl | ⟨1, _⟩ => rfl)
theorem lidx18 (R : Fin 3375) (j : Fin 64) (k : Fin 4913) : lidx_main_v18 (ix2 R j) k = ix2 R k :=
  funext fun a => Fin.ext (by match a with | ⟨0, _⟩ => rfl | ⟨1, _⟩ => rfl)
theorem ridx18 (R : Fin 3375) (j : Fin 64) (k : Fin 4913) : ridx_main_v18 (ix2 R j) k = ix2 k j :=
  funext fun a => Fin.ext (by match a with | ⟨0, _⟩ => rfl | ⟨1, _⟩ => rfl)

/-- Patch `R`'s keep bit. -/
theorem keep_at (R : Fin 3375) :
    val_main_v16 (F := Ideal) x0 (ix1 R) = keepQuot (rowsOf (val_main_v3 (F := Ideal) x0) R.val) := by
  rw [val_main_v16_apply, val_main_v15_apply, val_main_v13_apply, val_main_v11_apply, val_main_v12_apply, val_main_v14_apply,
    val_main_cst_0_apply, val_main_cst_1_apply, val_main_cst_2_apply, rowsOf_lt]
  unfold keepQuot zeros
  simp only [val_main_v10_apply, val_main_v9_apply, val_main_v8_apply, val_main_cst_apply, idx11, Ideal.ofBits_def,
    Ideal.ofBits_zero_f32, zero_add]
  rfl

/-- Patch `R`'s similarity. -/
theorem sim_at (R : Fin 3375) :
    val_main_v21 (F := Ideal) x0 x1 x2 x3 (ix1 R)
      = sim (fun k j => x2 (ix2 k j)) (fun k j => x3 (ix2 k j)) (rowsOf (val_main_v3 (F := Ideal) x0) R.val)
          (rowsOf (val_main_v7 (F := Ideal) x1) R.val) := by
  rw [val_main_v21_apply, val_main_v20_apply, val_main_cst_3_apply, rowsOf_lt, rowsOf_lt]
  unfold sim feature
  simp only [val_main_v19_apply, val_main_v17_apply, val_main_v18_apply, idx20, lidx17, ridx17, lidx18, ridx18,
    Ideal.ofBits_def, Ideal.ofBits_zero_f32, zero_add, Ideal.hostUnary_tanh_def, Ideal.mulf_def]

/-- The reference's result. -/
def refResult : S_.Idx → EReal := fun _ =>
  Ideal.div
    (0 + ∑ R ∈ Finset.range 3375, sim (fun k j => x2 (ix2 k j)) (fun k j => x3 (ix2 k j))
        (rowsOf (val_main_v3 (F := Ideal) x0) R) (rowsOf (val_main_v7 (F := Ideal) x1) R)
      * keepQuot (rowsOf (val_main_v3 (F := Ideal) x0) R))
    (max (0 + ∑ R ∈ Finset.range 3375, keepQuot (rowsOf (val_main_v3 (F := Ideal) x0) R)) (Ideal.ofBits .f32 0x3F800000#32))

theorem result_eq : val_main_v26 (F := Ideal) x0 x1 x2 x3 = refResult x0 x1 x2 x3 := by
  funext i
  rw [val_main_v26_apply, val_main_v23_apply, val_main_v25_apply, val_main_v24_apply, val_main_cst_4_apply, val_main_cst_5_apply,
    val_main_cst_6_apply, sum_idx1, sum_idx1]
  unfold refResult
  rw [← Fin.sum_univ_eq_sum_range (fun R => sim (fun k j => x2 (ix2 k j)) (fun k j => x3 (ix2 k j))
        (rowsOf (val_main_v3 (F := Ideal) x0) R) (rowsOf (val_main_v7 (F := Ideal) x1) R)
      * keepQuot (rowsOf (val_main_v3 (F := Ideal) x0) R)) 3375,
    ← Fin.sum_univ_eq_sum_range (fun R => keepQuot (rowsOf (val_main_v3 (F := Ideal) x0) R)) 3375]
  simp only [val_main_v22_apply, sim_at, keep_at, Ideal.ofBits_def, Ideal.ofBits_zero_f32, Ideal.mulf_def, Ideal.hostDivf_def,
    Ideal.maximumf_def]

end Cert.ReferenceIdeal.RefValue

end
-- ==== Proof.lean ====
/-
  The claim: a patch-similarity score computed by a two-core grid kernel equals the one computed by plain array operations,
  over the extended reals.

  Both programs cut the fixed and the moving volume into 3375 patches of 4913 numbers, give each pair of patches a similarity
  (`tanh` of the inner product of two 64-feature vectors, each feature a patch against a weight column), keep the patches whose
  fixed patch has few enough zeros, and return the sum of the kept similarities over the number of kept patches, or over one if
  that is less.

  They differ in two ways. The kernel tests `zeros · c ≤ t` with `c` the single-precision number nearest 1/4913 where the
  reference tests `zeros / 4913 ≤ t`; since `zeros` is a natural number both say `zeros ≤ 736` (Proof/KeepRule.lean). And the
  kernel pads the patch matrices with 209 rows of zeros and sums 14 blocks of 256 rows, seven on each core, where the reference
  sums 3375 rows at once; a row of zeros has 4913 zeros, is not kept and adds nothing, and sums of extended reals regroup freely
  (Proof/PatchSpec.lean). Neither step needs the inputs to be finite.

  The kernel's result is read off its generated frame run (Proof/Pieces.lean, Accumulate.lean, KernelValue.lean: what each grid
  point leaves in the two accumulators, their running sums, the tile each core writes, the four lanes the host adds and divides),
  the reference's off its run one operation at a time (Proof/RefValue.lean).
-/
import proofs.«146623_j71562745086384_2_alg».proof.Defs
import proofs.«146623_j71562745086384_2_alg».proof.Proof.Gen.Kernel
import proofs.«146623_j71562745086384_2_alg».proof.Proof.Gen.Kernel.Skeleton
import proofs.«146623_j71562745086384_2_alg».proof.Proof.Gen.Kernel.Launch
import proofs.«146623_j71562745086384_2_alg».proof.Proof.Gen.Kernel.Points
import proofs.«146623_j71562745086384_2_alg».proof.Proof.Gen.Kernel.Frame
import proofs.«146623_j71562745086384_2_alg».proof.Proof.Gen.KernelIdeal
import proofs.«146623_j71562745086384_2_alg».proof.Proof.Gen.KernelIdeal.Skeleton
import proofs.«146623_j71562745086384_2_alg».proof.Proof.Gen.KernelIdeal.Launch
import proofs.«146623_j71562745086384_2_alg».proof.Proof.Gen.KernelIdeal.Points
import proofs.«146623_j71562745086384_2_alg».proof.Proof.Gen.KernelIdeal.Frame
import proofs.«146623_j71562745086384_2_alg».proof.Proof.Gen.ReferenceIdeal
import proofs.«146623_j71562745086384_2_alg».proof.Proof.Gen.Pre_finite_inputs
import proofs.«146623_j71562745086384_2_alg».proof.Proof.KernelValue
import proofs.«146623_j71562745086384_2_alg».proof.Proof.RefValue
import Idealize.ShloMosaic.Adequacy
import Idealize.ShloMosaic.Init

noncomputable section

namespace Cert.Proof

open Idealize.ShloMosaic Idealize.SL.Sem Idealize.ShloMosaic.TcCoe Cert.PatchSim

/-- The two results are one number: the kernel's two runs of seven blocks are the fourteen blocks, those are the 3375 rows,
    and the two keep rules agree on every row. -/
theorem values_agree (m : (ℓ : Loc Cert.KernelIdeal.nD Cert.KernelIdeal.τ Cert.KernelIdeal.sig) → Buf (Elt Ideal) ℓ)
    (c : Dev Cert.KernelIdeal.nD) :
    Cert.KernelIdeal.PatchValue.kernelResult m c
      = Cert.ReferenceIdeal.RefValue.refResult
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  unfold Cert.KernelIdeal.PatchValue.kernelResult Cert.ReferenceIdeal.RefValue.refResult
  funext _
  unfold Cert.KernelIdeal.PatchValue.sumFirst Cert.KernelIdeal.PatchValue.sumSecond Cert.KernelIdeal.PatchValue.keptFirst
    Cert.KernelIdeal.PatchValue.keptSecond
  rw [add_zero, add_zero, zero_add, zero_add, zero_add, zero_add, two_halves, two_halves]
  unfold Cert.KernelIdeal.PatchValue.blockTerm Cert.KernelIdeal.PatchValue.blockKept Cert.KernelIdeal.PatchValue.rowTerm
    Cert.KernelIdeal.PatchValue.rowKept
  rw [kept_sum_blocks (Cert.KernelIdeal.PatchValue.weightsF m c) (Cert.KernelIdeal.PatchValue.weightsM m c)
      (Cert.KernelIdeal.PatchValue.fixedRows m c) (Cert.KernelIdeal.PatchValue.movingRows m c) (fun R hR => rowsOf_tail _ R hR),
    kept_count_blocks (Cert.KernelIdeal.PatchValue.fixedRows m c) (fun R hR => rowsOf_tail _ R hR)]
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the same number, from memories that agree on the arguments. -/
theorem algebraic : Cert.algebraic_KernelIdeal_ReferenceIdeal := by
  intro m ρ m' ρ' _ hagree
  refine ⟨fun c => Cert.KernelIdeal.PatchValue.kernelResult m c, Cert.KernelIdeal.PatchValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v26_eq, Cert.ReferenceIdeal.RefValue.result_eq, (hagree c).1, (hagree c).2.1,
    (hagree c).2.2.1, (hagree c).2.2.2]
  exact (values_agree m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
